-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  IdealRules.truncf_extf.Statement Cert.KernelIdeal.S1x4096 .f32 .bf16
  ∧ IdealRules.truncf_extf.Statement Cert.KernelIdeal.S1x4096 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x3 : Shape := ⟨3, ![4, 4096, 3]⟩
abbrev S_ : Shape := ⟨0, ![]⟩

class Facts : Prop where
  bcast_S_S4x4096x3 : S_.BroadcastsInDim S4x4096x3 (![] : Fin 0 → Fin S4x4096x3.rank)
  reducesTo_S4x4096x3_S_d0_1_2 : S4x4096x3.ReducesTo [0, 1, 2] S_
  h_S_ : 0 < S_.numel

variable [Facts]

def fn {F : FTy → Type} [FloatOps F] (main_arg0 : FVec F S4x4096x3 .f32) (main_arg1 : FVec F S4x4096x3 .f32) : IVec S_ 1 :=
  let main_v0 : FVec F S4x4096x3 .f32 := Host.absf main_arg0
  let main_cst : FVec F S_ .f32 := constant S_ .f32 0x7F800000#32
  let main_v1 : FVec F S4x4096x3 .f32 := broadcastInDim S4x4096x3 ![] bcast_S_S4x4096x3 main_cst
  let main_v2 : IVec S4x4096x3 1 := cmpf .olt main_v0 main_v1
  let main_c : IVec S_ 1 := constantI S_ 1 1#1
  let main_v3 : IVec S_ 1 := (fun x v => Host.reduce IntOp.andi x v reducesTo_S4x4096x3_S_d0_1_2 h_S_) main_v2 main_c
  let main_v4 : FVec F S4x4096x3 .f32 := Host.absf main_arg1
  let main_cst_0 : FVec F S_ .f32 := constant S_ .f32 0x7F800000#32
  let main_v5 : FVec F S4x4096x3 .f32 := broadcastInDim S4x4096x3 ![] bcast_S_S4x4096x3 main_cst_0
  let main_v6 : IVec S4x4096x3 1 := cmpf .olt main_v4 main_v5
  let main_c_1 : IVec S_ 1 := constantI S_ 1 1#1
  let main_v7 : IVec S_ 1 := (fun x v => Host.reduce IntOp.andi x v reducesTo_S4x4096x3_S_d0_1_2 h_S_) main_v6 main_c_1
  let main_v8 : IVec S_ 1 := andi main_v3 main_v7
  main_v8
-- ==== Kernel.lean ====
abbrev S4x4096x3 : Shape := ⟨3, ![4, 4096, 3]⟩
abbrev S4x3x4096 : Shape := ⟨3, ![4, 3, 4096]⟩
abbrev S32x512 : Shape := ⟨2, ![32, 512]⟩
abbrev S1x1024x3 : Shape := ⟨3, ![1, 1024, 3]⟩
abbrev S1x3x4096 : Shape := ⟨3, ![1, 3, 4096]⟩
abbrev S8x128 : Shape := ⟨2, ![8, 128]⟩
abbrev S3x4096 : Shape := ⟨2, ![3, 4096]⟩
abbrev S4096 : Shape := ⟨1, ![4096]⟩
abbrev S1x4096 : Shape := ⟨2, ![1, 4096]⟩
abbrev S2x4096 : Shape := ⟨2, ![2, 4096]⟩
abbrev S8x4096 : Shape := ⟨2, ![8, 4096]⟩
abbrev S1024x3 : Shape := ⟨2, ![1024, 3]⟩
abbrev S1024x2 : Shape := ⟨2, ![1024, 2]⟩
abbrev S1024x8 : Shape := ⟨2, ![1024, 8]⟩
abbrev S1024x4096 : Shape := ⟨2, ![1024, 4096]⟩
abbrev S1024 : Shape := ⟨1, ![1024]⟩
abbrev S1024x1 : Shape := ⟨2, ![1024, 1]⟩
abbrev S1x1024x1 : Shape := ⟨3, ![1, 1024, 1]⟩
abbrev S1 : Shape := ⟨1, ![1]⟩
abbrev S1x1x1 : Shape := ⟨3, ![1, 1, 1]⟩
abbrev S_ : Shape := ⟨0, ![]⟩

abbrev nBuf : Space → Nat
  | .hbm => 8
  | .vmem => 6
  | .smem => 0
  | _ => 0

abbrev bufTy : (tb : Table) → Fin (tcTables nBuf tb) → BufTy
  | .hbm, ⟨0, _⟩ => ⟨S4x4096x3, .f32⟩
  | .hbm, ⟨1, _⟩ => ⟨S4x4096x3, .f32⟩
  | .hbm, ⟨2, _⟩ => ⟨S4x3x4096, .f32⟩
  | .hbm, ⟨3, _⟩ => ⟨S32x512, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .local _ .vmem, ⟨0, _⟩ => ⟨S1x1024x3, .f32⟩
  | .local _ .vmem, ⟨1, _⟩ => ⟨S1x1024x3, .f32⟩
  | .local _ .vmem, ⟨2, _⟩ => ⟨S1x3x4096, .f32⟩
  | .local _ .vmem, ⟨3, _⟩ => ⟨S1x3x4096, .f32⟩
  | .local _ .vmem, ⟨4, _⟩ => ⟨S8x128, .f32⟩
  | .local _ .vmem, ⟨5, _⟩ => ⟨S8x128, .f32⟩
  | _, _ => ⟨S4x4096x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1x1024x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x3x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  transposes_S4x4096x3_S4x3x4096_0_2_1 : S4x4096x3.Transposes [0, 2, 1] S4x3x4096
  inb_S1x3x4096_S1x3x4096_0_0_0 : ∀ a, (![0, 0, 0] : Fin 3 → Nat) a + S1x3x4096.size a ≤ S1x3x4096.size a
  h_S1x3x4096 : 0 < S1x3x4096.numel
  shapeCasts_S1x3x4096_S3x4096 : S1x3x4096.ShapeCasts S3x4096
  reduces_S3x4096_S4096 : S3x4096.Reduces [0] S4096
  shapeCasts_S4096_S1x4096 : S4096.ShapeCasts S1x4096
  bitsLt_bf16_f32 : FTy.bits .bf16 < FTy.bits .f32
  concatenates_S3x4096_S1x4096_S1x4096_S1x4096_S2x4096_S8x4096_d0 : Shape.Concatenates [S3x4096, S1x4096, S1x4096, S1x4096, S2x4096] S8x4096 0
  inb_S1x1024x3_S1x1024x3_0_0_0 : ∀ a, (![0, 0, 0] : Fin 3 → Nat) a + S1x1024x3.size a ≤ S1x1024x3.size a
  h_S1x1024x3 : 0 < S1x1024x3.numel
  shapeCasts_S1x1024x3_S1024x3 : S1x1024x3.ShapeCasts S1024x3
  concatenates_S1024x3_S1024x3_S1024x2_S1024x8_d1 : Shape.Concatenates [S1024x3, S1024x3, S1024x2] S1024x8 1
  reduces_S1024x4096_S1024 : S1024x4096.Reduces [1] S1024
  shapeCasts_S1024_S1024x1 : S1024.ShapeCasts S1024x1
  reduces_S1024x3_S1024 : S1024x3.Reduces [1] S1024
  shapeCasts_S1024x1_S1x1024x1 : S1024x1.ShapeCasts S1x1024x1
  reduces_S1x1024x1_S1 : S1x1024x1.Reduces [1, 2] S1
  shapeCasts_S1_S1x1x1 : S1.ShapeCasts S1x1x1
  inpos_S1x1x1_p0_0_0 : ∀ a, (![0, 0, 0] : Fin 3 → Nat) a < S1x1x1.size a
  inb_S8x128_S8x128_0_0 : ∀ a, (![0, 0] : Fin 2 → Nat) a + S8x128.size a ≤ S8x128.size a
  h_S8x128 : 0 < S8x128.numel
  reducesTo_S32x512_S_d0_1 : S32x512.ReducesTo [0, 1] S_
  h_S_ : 0 < S_.numel
  dot_S1024x8_S8x4096_S1024x4096_1_0_0_1_n_n_wf : DotDims.WF S1024x8 S8x4096 S1024x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x3.size a ≤ S4x4096x3.size a
  hwx0_0 : ∀ i : grid0.Coords, EltTy.bits .f32 = 32 ∨ (Rect.block (s := S4x4096x3) S1x1024x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x3x4096.size a ≤ S4x3x4096.size a
  hwx0_1 : ∀ i : grid0.Coords, EltTy.bits .f32 = 32 ∨ (Rect.block (s := S4x3x4096) S1x3x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x128.size a ≤ S32x512.size a
  hwx0_2 : ∀ i : grid0.Coords, EltTy.bits .f32 = 32 ∨ (Rect.block (s := S32x512) S8x128.size (cc0_transform_2 i) (hinb0_2 i)).WholeWords (EltTy.packing .f32)

variable [Facts₀]

def dot_S1024x8_S8x4096_S1024x4096_1_0_0_1_n_n : DotDims S1024x8 S8x4096 S1024x4096 where
  lhsContracting := [1]
  rhsContracting := [0]
  lhsNonContracting := [0]
  rhsNonContracting := [1]
  lhsBatch := []
  rhsBatch := []
  wf := dot_S1024x8_S8x4096_S1024x4096_1_0_0_1_n_n_wf

abbrev win0_0 : Pipeline.Window sig grid0 :=
  Pipeline.Window.ofSpec (Memref.whole main_arg1) S1x1024x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x3x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S8x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4x4096x3 : Shape := ⟨3, ![4, 4096, 3]⟩
abbrev S_ : Shape := ⟨0, ![]⟩
abbrev S4x4096 : Shape := ⟨2, ![4, 4096]⟩
abbrev S4x4096x4096 : Shape := ⟨3, ![4, 4096, 4096]⟩
abbrev S4x4096x1 : Shape := ⟨3, ![4, 4096, 1]⟩
abbrev S4x1x4096 : Shape := ⟨3, ![4, 1, 4096]⟩
abbrev S4 : Shape := ⟨1, ![4]⟩

abbrev nBuf : Space → Nat
  | .hbm => 32
  | .vmem => 0
  | .smem => 0
  | _ => 0

abbrev bufTy : (tb : Table) → Fin (tcTables nBuf tb) → BufTy
  | .hbm, ⟨0, _⟩ => ⟨S4x4096x3, .f32⟩
  | .hbm, ⟨1, _⟩ => ⟨S4x4096x3, .f32⟩
  | .hbm, ⟨2, _⟩ => ⟨S4x4096x3, .f32⟩
  | .hbm, ⟨3, _⟩ => ⟨S_, .f32⟩
  | .hbm, ⟨4, _⟩ => ⟨S4x4096, .f32⟩
  | .hbm, ⟨5, _⟩ => ⟨S4x4096x3, .f32⟩
  | .hbm, ⟨6, _⟩ => ⟨S_, .f32⟩
  | .hbm, ⟨7, _⟩ => ⟨S4x4096, .f32⟩
  | .hbm, ⟨8, _⟩ => ⟨S4x4096x4096, .f32⟩
  | .hbm, ⟨9, _⟩ => ⟨S4x4096x1, .f32⟩
  | .hbm, ⟨10, _⟩ => ⟨S4x1x4096, .f32⟩
  | .hbm, ⟨11, _⟩ => ⟨S4x4096x4096, .f32⟩
  | .hbm, ⟨12, _⟩ => ⟨S4x4096x4096, .f32⟩
  | .hbm, ⟨13, _⟩ => ⟨S4x4096x4096, .f32⟩
  | .hbm, ⟨14, _⟩ => ⟨S_, .f32⟩
  | .hbm, ⟨15, _⟩ => ⟨S4x4096x4096, .f32⟩
  | .hbm, ⟨16, _⟩ => ⟨S4x4096x4096, .f32⟩
  | .hbm, ⟨17, _⟩ => ⟨S4x4096x4096, .f32⟩
  | .hbm, ⟨18, _⟩ => ⟨S_, .f32⟩
  | .hbm, ⟨19, _⟩ => ⟨S4x4096x4096, .f32⟩
  | .hbm, ⟨20, _⟩ => ⟨S4x4096x4096, .f32⟩
  | .hbm, ⟨21, _⟩ => ⟨S_, .f32⟩
  | .hbm, ⟨22, _⟩ => ⟨S4x4096, .f32⟩
  | .hbm, ⟨23, _⟩ => ⟨S_, .f32⟩
  | .hbm, ⟨24, _⟩ => ⟨S4, .f32⟩
  | .hbm, ⟨25, _⟩ => ⟨S_, .f32⟩
  | .hbm, ⟨26, _⟩ => ⟨S4, .f32⟩
  | .hbm, ⟨27, _⟩ => ⟨S4, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | _, _ => ⟨S4x4096x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_cst_3 : Ref sig .tc := ⟨.hbm, 21, rfl⟩
abbrev main_v15 : Ref sig .tc := ⟨.hbm, 22, rfl⟩
abbrev main_cst_4 : Ref sig .tc := ⟨.hbm, 23, rfl⟩
abbrev main_v16 : Ref sig .tc := ⟨.hbm, 24, rfl⟩
abbrev main_cst_5 : Ref sig .tc := ⟨.hbm, 25, rfl⟩
abbrev main_v17 : Ref sig .tc := ⟨.hbm, 26, rfl⟩
abbrev main_v18 : Ref sig .tc := ⟨.hbm, 27, rfl⟩
abbrev main_cst_6 : Ref sig .tc := ⟨.hbm, 28, rfl⟩
abbrev main_v19 : Ref sig .tc := ⟨.hbm, 29, rfl⟩
abbrev main_cst_7 : Ref sig .tc := ⟨.hbm, 30, rfl⟩
abbrev main_v20 : Ref sig .tc := ⟨.hbm, 31, rfl⟩

abbrev nD : Nat := 1
abbrev τ : Topo := Topo.v7x

variable {F : FTy → Type} [FloatOps F]

class Facts₀ : Prop where
  reducesTo_S4x4096x3_S4x4096_d2 : S4x4096x3.ReducesTo [2] S4x4096
  h_S_ : 0 < S_.numel
  bcast_S4x4096_S4x4096x1_0_1 : S4x4096.BroadcastsInDim S4x4096x1 (![0, 1] : Fin 2 → Fin S4x4096x1.rank)
  bcast_S4x4096_S4x1x4096_0_2 : S4x4096.BroadcastsInDim S4x1x4096 (![0, 2] : Fin 2 → Fin S4x1x4096.rank)
  bcast_S4x4096x1_S4x4096x4096_0_1_2 : S4x4096x1.BroadcastsInDim S4x4096x4096 (![0, 1, 2] : Fin 3 → Fin S4x4096x4096.rank)
  bcast_S4x1x4096_S4x4096x4096_0_1_2 : S4x1x4096.BroadcastsInDim S4x4096x4096 (![0, 1, 2] : Fin 3 → Fin S4x4096x4096.rank)
  bcast_S_S4x4096x4096 : S_.BroadcastsInDim S4x4096x4096 (![] : Fin 0 → Fin S4x4096x4096.rank)
  reducesTo_S4x4096x4096_S4x4096_d2 : S4x4096x4096.ReducesTo [2] S4x4096
  reducesTo_S4x4096_S4_d1 : S4x4096.ReducesTo [1] S4
  bcast_S_S4 : S_.BroadcastsInDim S4 (![] : Fin 0 → Fin S4.rank)
  reducesTo_S4_S_d0 : S4.ReducesTo [0] S_
  dot_S4x4096x3_S4x4096x3_S4x4096x4096_2_2_1_1_0_0_wf : DotDims.WF S4x4096x3 S4x4096x3 S4x4096x4096 [2] [2] [1] [1] [0] [0]

variable [Facts₀]

def dot_S4x4096x3_S4x4096x3_S4x4096x4096_2_2_1_1_0_0 : DotDims S4x4096x3 S4x4096x3 S4x4096x4096 where
  lhsContracting := [2]
  rhsContracting := [2]
  lhsNonContracting := [1]
  rhsNonContracting := [1]
  lhsBatch := [0]
  rhsBatch := [0]
  wf := dot_S4x4096x3_S4x4096x3_S4x4096x4096_2_2_1_1_0_0_wf

class Facts : Prop extends Facts₀ where

variable [Facts]
-- ==== Proof.Chamfer.lean ====
/-
  The mathematics of the one-directional Chamfer loss, stated once, away from any program.

  Points live in batches: an array `A : [4, 4096, 3]` holds, for each batch `b`, 4096 points of three
  coordinates.  For a query array `X` and a target array `Y` the loss is the mean, over batches and queries,
  of the clamped squared distance from a query to its nearest target.

  Two spellings of that number are written down here, both over the extended reals:
  * `refLoss`: distance by distance `max (|x|² + |y|² - 2 x·y) 0`, the minimum over targets, the mean over
    queries of each batch, the mean over the four batches;
  * `kernLoss`: for each pair an eight-lane product
      `(-2x₀)y₀ + (-2x₁)y₁ + (-2x₂)y₂ + 1·s + 1·(s - s) + 1·((s - s) - (s - s)) + 0·0 + 0·0`, `s = |y|²`,
    the minimum over targets, then `+ |x|²`, the clamp, the sum over the 1024 queries of a block, that sum
    written into an 8 × 128 tile of a [32, 512] array, the total of the array, scaled by `2⁻²⁴`.
  Proof/ChamferLaw.lean shows the two are one number when every coordinate is a real number.
-/
import Idealize.ShloMosaic.PureOps.Ideal
import Idealize.ShloMosaic.Lib.ValueIdx

noncomputable section

namespace Cert.Chamfer

open Idealize.ShloMosaic Idealize.ShloMosaic.ValueIdx

/-- Four batches of 4096 points of three coordinates. -/
abbrev Pts : Type := (⟨3, ![4, 4096, 3]⟩ : Shape).Idx → EReal

/-- The squared length of point `n` of batch `b`. -/
def sq (A : Pts) (b : Fin 4) (n : Fin 4096) : EReal := ∑ d : Fin 3, A (ix3 b n d) * A (ix3 b n d)

/-- The inner product of query `n` with target `m`, both of batch `b`. -/
def dotp (X Y : Pts) (b : Fin 4) (n m : Fin 4096) : EReal := ∑ d : Fin 3, X (ix3 b n d) * Y (ix3 b m d)

/-! ## The reference's spelling -/

/-- The clamped squared distance from query `n` to target `m`: `max (|x|² + |y|² - 2 x·y) 0`, each squared
    length a sum begun at zero. -/
def dist (Y X : Pts) (b : Fin 4) (n m : Fin 4096) : EReal :=
  max (((0 + sq X b n) + (0 + sq Y b m)) - ((2 : ℝ) : EReal) * dotp X Y b n m) 0

/-- The distance from query `n` to its nearest target: the minimum, begun at `+∞`, over the targets. -/
def near (Y X : Pts) (b : Fin 4) (n : Fin 4096) : EReal :=
  (Finset.univ : Finset (Fin 4096)).fold min ⊤ (fun m => dist Y X b n m)

/-- The mean over the batches of the mean over the queries of the nearest distance. -/
def refLoss (Y X : Pts) : EReal :=
  Ideal.div (0 + ∑ b : Fin 4, Ideal.div (0 + ∑ n : Fin 4096, near Y X b n) ((4096 : ℝ) : EReal)) ((4 : ℝ) : EReal)

/-! ## The kernel's spelling -/

/-- The eight lanes the matrix unit multiplies and adds for one (query, target) pair. -/
def lanes (Y X : Pts) (b : Fin 4) (n m : Fin 4096) : EReal :=
  X (ix3 b n 0) * ((-2 : ℝ) : EReal) * Y (ix3 b m 0) + X (ix3 b n 1) * ((-2 : ℝ) : EReal) * Y (ix3 b m 1)
    + X (ix3 b n 2) * ((-2 : ℝ) : EReal) * Y (ix3 b m 2)
    + 1 * sq Y b m + 1 * (sq Y b m - sq Y b m) + 1 * ((sq Y b m - sq Y b m) - (sq Y b m - sq Y b m))
    + 0 * 0 + 0 * 0

/-- The kernel's nearest distance: the minimum of the lane sums over the targets, then the query's squared
    length added, then the clamp. -/
def knear (Y X : Pts) (b : Fin 4) (n : Fin 4096) : EReal :=
  max ((Finset.univ : Finset (Fin 4096)).fold min ⊤ (fun m => lanes Y X b n m) + sq X b n) 0

/-- Query `r` of block `j` (1024 queries to a block). -/
def qidx (j : Fin 4) (r : Fin 1024) : Fin 4096 := ⟨j.val * 1024 + r.val, by have := j.isLt; have := r.isLt; omega⟩

/-- The sum of the nearest distances over the 1024 queries of block `j` of batch `b`. -/
def blockSum (Y X : Pts) (b j : Fin 4) : EReal := ∑ r : Fin 1024, knear Y X b (qidx j r)

/-- Row `p` of the [32, 512] result array lies in the tile row `p / 8`, column `q` in the tile column `q / 128`. -/
def tileRow (p : Fin 32) : Fin 4 := ⟨p.val / 8, by have := p.isLt; omega⟩
def tileCol (q : Fin 512) : Fin 4 := ⟨q.val / 128, by have := q.isLt; omega⟩

/-- The total of the [32, 512] array of tiles, begun at zero, scaled by `2⁻²⁴ = 1 / (4 · 4096 · 8 · 128)`. -/
def kernLoss (Y X : Pts) : EReal :=
  (0 + ∑ p : Fin 32, ∑ q : Fin 512, blockSum Y X (tileRow p) (tileCol q)) * ((1 / 16777216 : ℝ) : EReal)

/-! ## Sums over small index sets by their coordinates -/

/-- A rank-1 index set is its one coordinate range. -/
def idxEquiv1 {n : Nat} : (⟨1, ![n]⟩ : Shape).Idx ≃ Fin n where
  toFun i := i 0
  invFun a := ix1 a
  left_inv i := (eq_ix1 i).symm
  right_inv _ := rfl

theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- A `[1, n, 1]` index set is its middle coordinate range. -/
def idxEquiv1n1 {n : Nat} : (⟨3, ![1, n, 1]⟩ : Shape).Idx ≃ Fin n where
  toFun i := i 1
  invFun a := ix3 (0 : Fin 1) a (0 : Fin 1)
  left_inv i := by
    funext d
    match d with
    | ⟨0, _⟩ => exact Fin.ext (by have h : (i 0).val < 1 := (i 0).isLt; show (0 : Nat) = (i 0).val; omega)
    | ⟨1, _⟩ => rfl
    | ⟨2, _⟩ => exact Fin.ext (by have h : (i 2).val < 1 := (i 2).isLt; show (0 : Nat) = (i 2).val; omega)
  right_inv _ := rfl

theorem sum_idx1n1 {M : Type*} [AddCommMonoid M] {n : Nat} (f : (⟨3, ![1, n, 1]⟩ : Shape).Idx → M) :
    ∑ i, f i = ∑ a : Fin n, f (ix3 (0 : Fin 1) a (0 : Fin 1)) := by
  rw [← Equiv.sum_comp (idxEquiv1n1 (n := n)).symm f]
  rfl

end Cert.Chamfer

end
-- ==== Proof.LibFoldMin.lean ====
import Idealize.ShloMosaic.PureOps.Ideal.Laws

/-!
# Minima taken by folding, and the reals inside the extended reals

* A monotone map of a linear order goes through a minimum taken by folding `min` over a finite set from a start
  value: `g (fold min b f) = fold min (g b) (g ∘ f)`.  With `g = (· + c)` or `g = max · c` this moves an added
  constant or a clamp inside a row minimum.
* A float `minimumf` reduction over ONE axis, read at the ideal values, is the fold of `min` from the
  accumulator's value over that axis's coordinates (the companion of the library's statement for `maximumf`).
* The coercion of the reals into the extended reals goes through finite sums and through `max`.
-/

namespace Cert.LibFoldMin

open Idealize.ShloMosaic

/-- A monotone map of a linear order goes through a minimum taken by folding over a finite set. -/
theorem map_fold_min {α ι : Type*} [LinearOrder α] {g : α → α} (hg : Monotone g) (s : Finset ι) (b : α)
    (f : ι → α) : g (s.fold min b f) = s.fold min (g b) (fun i => g (f i)) := by
  classical
  induction s using Finset.induction_on with
  | empty => simp
  | insert a s ha ih => rw [Finset.fold_insert ha, Finset.fold_insert ha, hg.map_min, ih]

/-- A float `minimumf` reduction over one axis, at the ideal values: the fold of `min` from the accumulator's
    value over that axis's coordinates, the reduced index with the coordinate put back on the dropped axis. -/
theorem multiReduction_minimumf_single {s t : Shape} {a : Fin s.rank} {φ : FTy} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (FloatOps.ofBits φ acc) (src ∘ h.lift j) := by
  rw [multiReduction_minimumf_eq_fold]; exact h.fold_filter_drop_single _ _ src j

/-- The coercion of the reals goes through finite sums. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The coercion of the reals goes through the maximum of two numbers. -/
theorem coe_max (a b : ℝ) : ((max a b : ℝ) : EReal) = max (a : EReal) (b : EReal) :=
  EReal.coe_strictMono.monotone.map_max

end Cert.LibFoldMin
-- ==== Proof.ChamferLaw.lean ====
/-
  The two spellings of the one-directional Chamfer loss are one number when every coordinate is real.

  The argument, in order:
  * a monotone map goes through a minimum taken by folding, so "add the query's squared length, then clamp"
    can be moved inside the minimum over the targets;
  * pair by pair, the clamped eight-lane sum plus the query's squared length is the clamped
    `|x|² + |y|² - 2 x·y`: an identity between real numbers;
  * the nearest distance is a real number (it lies between zero and the distance to target zero), so the
    outer sums and scalings are sums and products of real numbers;
  * the tiled total counts every block sum 8 · 128 times, and the blocks of a batch partition its queries.
-/
import proofs.«153046_g85667417686468_cont_9to1_m_275_23_alg».proof.Proof.Chamfer
import proofs.«153046_g85667417686468_cont_9to1_m_275_23_alg».proof.Proof.LibFoldMin

noncomputable section

namespace Cert.Chamfer.Law

open Idealize.ShloMosaic Idealize.ShloMosaic.ValueIdx Cert.LibFoldMin

/-! ## The clamp after an added constant -/

/-- Adding a fixed number and clamping at zero is monotone. -/
theorem clampAdd_mono (c : EReal) : Monotone (fun z : EReal => max (z + c) 0) :=
  fun _ _ h => max_le_max (add_le_add h le_rfl) le_rfl

/-! ## The pointwise law, for real coordinates -/

/-- The squared length of a point of real coordinates, as a real number. -/
def sqR (r : (⟨3, ![4, 4096, 3]⟩ : Shape).Idx → ℝ) (b : Fin 4) (n : Fin 4096) : ℝ :=
  ∑ d : Fin 3, r (ix3 b n d) * r (ix3 b n d)

/-- The clamped squared distance between points of real coordinates, as a real number. -/
def distR (yr xr : (⟨3, ![4, 4096, 3]⟩ : Shape).Idx → ℝ) (b : Fin 4) (n m : Fin 4096) : ℝ :=
  max ((sqR xr b n + sqR yr b m) - 2 * ∑ d : Fin 3, xr (ix3 b n d) * yr (ix3 b m d)) 0

theorem sq_coe (r : (⟨3, ![4, 4096, 3]⟩ : Shape).Idx → ℝ) (b : Fin 4) (n : Fin 4096) :
    sq (fun i => (r i : EReal)) b n = ((sqR r b n : ℝ) : EReal) := by
  unfold sq sqR
  rw [Fin.sum_univ_three, Fin.sum_univ_three]
  norm_cast

theorem dist_coe (yr xr : (⟨3, ![4, 4096, 3]⟩ : Shape).Idx → ℝ) (b : Fin 4) (n m : Fin 4096) :
    dist (fun i => (yr i : EReal)) (fun i => (xr i : EReal)) b n m = ((distR yr xr b n m : ℝ) : EReal) := by
  unfold dist distR dotp
  rw [sq_coe, sq_coe, Fin.sum_univ_three, Fin.sum_univ_three, coe_max, EReal.coe_zero, zero_add, zero_add]
  beta_reduce
  simp only [← EReal.coe_mul, ← EReal.coe_add, ← EReal.coe_sub]

/-- Pair by pair: the eight-lane sum plus the query's squared length, clamped, is the clamped squared distance. -/
theorem clamp_lanes_coe (yr xr : (⟨3, ![4, 4096, 3]⟩ : Shape).Idx → ℝ) (b : Fin 4) (n m : Fin 4096) :
    max (lanes (fun i => (yr i : EReal)) (fun i => (xr i : EReal)) b n m + sq (fun i => (xr i : EReal)) b n) 0
      = ((distR yr xr b n m : ℝ) : EReal) := by
  unfold lanes distR
  rw [sq_coe, sq_coe, Fin.sum_univ_three, coe_max, EReal.coe_zero, one_mul, one_mul, one_mul, mul_zero, add_zero,
    add_zero]
  beta_reduce
  simp only [← EReal.coe_mul, ← EReal.coe_add, ← EReal.coe_sub]
  congr 2
  ring

/-! ## The nearest distance, both spellings, for real coordinates -/

/-- With real coordinates the kernel's nearest distance is the reference's. -/
theorem knear_eq_near (yr xr : (⟨3, ![4, 4096, 3]⟩ : Shape).Idx → ℝ) (b : Fin 4) (n : Fin 4096) :
    knear (fun i => (yr i : EReal)) (fun i => (xr i : EReal)) b n
      = near (fun i => (yr i : EReal)) (fun i => (xr i : EReal)) b n := by
  unfold knear near
  have h := map_fold_min (clampAdd_mono (sq (fun i => (xr i : EReal)) b n)) (Finset.univ : Finset (Fin 4096)) ⊤
    (fun m => lanes (fun i => (yr i : EReal)) (fun i => (xr i : EReal)) b n m)
  beta_reduce at h
  have e1 : max ((⊤ : EReal) + sq (fun i => (xr i : EReal)) b n) 0 = ⊤ := by
    rw [sq_coe, EReal.top_add_coe]
    exact max_eq_left le_top
  have e2 : (fun m => max (lanes (fun i => (yr i : EReal)) (fun i => (xr i : EReal)) b n m
        + sq (fun i => (xr i : EReal)) b n) 0)
      = fun m => dist (fun i => (yr i : EReal)) (fun i => (xr i : EReal)) b n m :=
    funext fun m => by rw [clamp_lanes_coe, dist_coe]
  rw [h, e1, e2]

/-- With real coordinates the nearest distance is a real number: it is at least zero and at most the distance
    to target zero. -/
theorem near_real (yr xr : (⟨3, ![4, 4096, 3]⟩ : Shape).Idx → ℝ) (b : Fin 4) (n : Fin 4096) :
    ((near (fun i => (yr i : EReal)) (fun i => (xr i : EReal)) b n).toReal : EReal)
      = near (fun i => (yr i : EReal)) (fun i => (xr i : EReal)) b n := by
  have h0 : (0 : EReal) ≤ near (fun i => (yr i : EReal)) (fun i => (xr i : EReal)) b n := by
    unfold near
    refine (Finset.le_fold_min _).mpr ⟨le_top, fun m _ => ?_⟩
    rw [dist_coe]
    exact EReal.coe_nonneg.mpr (le_max_right _ _)
  have h1 : near (fun i => (yr i : EReal)) (fun i => (xr i : EReal)) b n ≤ ((distR yr xr b n 0 : ℝ) : EReal) := by
    unfold near
    refine (Finset.fold_min_le _).mpr (Or.inr ⟨0, Finset.mem_univ _, ?_⟩)
    rw [dist_coe]
  refine EReal.coe_toReal ?_ ?_
  · exact ne_top_of_le_ne_top (EReal.coe_ne_top _) h1
  · exact ne_bot_of_le_ne_bot (by simp) h0

/-! ## The tiled total, for real numbers -/

/-- A sum over the 32 rows of a function of the tile row counts each of the four tile rows eight times. -/
theorem sum_tileRow (F : Fin 4 → ℝ) : ∑ p : Fin 32, F (tileRow p) = 8 * ∑ i : Fin 4, F i := by
  calc ∑ p : Fin 32, F (tileRow p)
      = ∑ x : Fin 4 × Fin 8, F (tileRow (finProdFinEquiv x)) :=
        (Equiv.sum_comp (finProdFinEquiv (m := 4) (n := 8)) (fun p : Fin 32 => F (tileRow p))).symm
    _ = ∑ i : Fin 4, ∑ _j : Fin 8, F i := by
        rw [Fintype.sum_prod_type]
        refine Finset.sum_congr rfl fun i _ => Finset.sum_congr rfl fun j _ => ?_
        congr 1
        apply Fin.ext
        have hi := i.isLt
        have hj := j.isLt
        simp only [tileRow, finProdFinEquiv_apply_val]
        omega
    _ = 8 * ∑ i : Fin 4, F i := by
        simp only [Finset.sum_const, Finset.card_univ, Fintype.card_fin, nsmul_eq_mul, Finset.mul_sum]
        norm_num

/-- A sum over the 512 columns of a function of the tile column counts each of the four tile columns 128 times. -/
theorem sum_tileCol (G : Fin 4 → ℝ) : ∑ q : Fin 512, G (tileCol q) = 128 * ∑ j : Fin 4, G j := by
  calc ∑ q : Fin 512, G (tileCol q)
      = ∑ x : Fin 4 × Fin 128, G (tileCol (finProdFinEquiv x)) :=
        (Equiv.sum_comp (finProdFinEquiv (m := 4) (n := 128)) (fun q : Fin 512 => G (tileCol q))).symm
    _ = ∑ j : Fin 4, ∑ _k : Fin 128, G j := by
        rw [Fintype.sum_prod_type]
        refine Finset.sum_congr rfl fun j _ => Finset.sum_congr rfl fun k _ => ?_
        congr 1
        apply Fin.ext
        have hj := j.isLt
        have hk := k.isLt
        simp only [tileCol, finProdFinEquiv_apply_val]
        omega
    _ = 128 * ∑ j : Fin 4, G j := by
        simp only [Finset.sum_const, Finset.card_univ, Fintype.card_fin, nsmul_eq_mul, Finset.mul_sum]
        norm_num

/-- The four blocks of 1024 queries partition the 4096 queries of a batch. -/
theorem sum_qidx (H : Fin 4096 → ℝ) : ∑ j : Fin 4, ∑ r : Fin 1024, H (qidx j r) = ∑ n : Fin 4096, H n := by
  symm
  calc ∑ n : Fin 4096, H n
      = ∑ x : Fin 4 × Fin 1024, H (finProdFinEquiv x) :=
        (Equiv.sum_comp (finProdFinEquiv (m := 4) (n := 1024)) H).symm
    _ = ∑ j : Fin 4, ∑ r : Fin 1024, H (qidx j r) := by
        rw [Fintype.sum_prod_type]
        refine Finset.sum_congr rfl fun j _ => Finset.sum_congr rfl fun r _ => ?_
        congr 1
        apply Fin.ext
        simp only [qidx, finProdFinEquiv_apply_val]
        omega

/-- The total of the tiled array, scaled by `2⁻²⁴`, is the mean over the batches of the mean over the queries. -/
theorem tile_total (a : Fin 4 → Fin 4096 → ℝ) :
    (∑ p : Fin 32, ∑ q : Fin 512, ∑ r : Fin 1024, a (tileRow p) (qidx (tileCol q) r)) * (1 / 16777216)
      = (∑ i : Fin 4, (∑ n : Fin 4096, a i n) * (1 / 4096)) * (1 / 4) := by
  rw [sum_tileRow (fun i => ∑ q : Fin 512, ∑ r : Fin 1024, a i (qidx (tileCol q) r))]
  have h : ∀ i : Fin 4, ∑ q : Fin 512, ∑ r : Fin 1024, a i (qidx (tileCol q) r) = 128 * ∑ n : Fin 4096, a i n := by
    intro i
    rw [sum_tileCol (fun j => ∑ r : Fin 1024, a i (qidx j r)), sum_qidx (fun n => a i n)]
  simp only [h]
  rw [← Finset.mul_sum, ← Finset.sum_mul]
  ring

end Cert.Chamfer.Law

namespace Cert.Chamfer

open Idealize.ShloMosaic Idealize.ShloMosaic.ValueIdx Law Cert.LibFoldMin

/-- When every coordinate of the targets and of the queries is a real number, the kernel's spelling of the loss
    and the reference's are one number. -/
theorem kernLoss_eq_refLoss (Y X : Pts) (hY : ∀ i, ∃ r : ℝ, Y i = (r : EReal))
    (hX : ∀ i, ∃ r : ℝ, X i = (r : EReal)) : kernLoss Y X = refLoss Y X := by
  choose yr hy using hY
  choose xr hx using hX
  obtain rfl : Y = fun i => (yr i : EReal) := funext hy
  obtain rfl : X = fun i => (xr i : EReal) := funext hx
  -- the nearest distances, as real numbers
  obtain ⟨a, ha⟩ : ∃ a : Fin 4 → Fin 4096 → ℝ, ∀ b n,
      near (fun i => (yr i : EReal)) (fun i => (xr i : EReal)) b n = ((a b n : ℝ) : EReal) :=
    ⟨fun b n => (near (fun i => (yr i : EReal)) (fun i => (xr i : EReal)) b n).toReal,
      fun b n => (near_real yr xr b n).symm⟩
  -- the kernel's spelling is the coercion of a real number
  have hk : kernLoss (fun i => (yr i : EReal)) (fun i => (xr i : EReal))
      = (((∑ p : Fin 32, ∑ q : Fin 512, ∑ r : Fin 1024, a (tileRow p) (qidx (tileCol q) r))
          * (1 / 16777216) : ℝ) : EReal) := by
    simp only [kernLoss, blockSum, knear_eq_near, ha, ← coe_sum, zero_add, ← EReal.coe_mul]
  -- so is the reference's
  have hr : refLoss (fun i => (yr i : EReal)) (fun i => (xr i : EReal))
      = (((∑ i : Fin 4, (∑ n : Fin 4096, a i n) * (1 / 4096)) * (1 / 4) : ℝ) : EReal) := by
    simp only [refLoss, ha, ← coe_sum, zero_add, Ideal.div_coe (by norm_num : (4096 : ℝ) ≠ 0),
      Ideal.div_coe (by norm_num : (4 : ℝ) ≠ 0), ← EReal.coe_mul]
  rw [hk, hr, tile_total]

end Cert.Chamfer

end
-- ==== Proof.Finite.lean ====
/-
  From the precondition to "every input coordinate is a real number".

  The precondition is the predicate `all (|a0| < +∞) ∧ all (|a1| < +∞)` over the two input arrays, and the
  claim supplies that it evaluates to the one-bit word 1.  Over the extended reals `|x|` is `max x (-x)`,
  the pattern 0x7F800000 denotes `⊤`, and `<` is the order's comparison.  The conjunction being 1 makes each
  `all` equal to 1; an `all` that is 1 had a 1 at every index; and `max x (-x) < ⊤` excludes both `x = ⊤`
  and `x = ⊥` (there `-x = ⊤`), so `x` is the image of a real number.
-/
import proofs.«153046_g85667417686468_cont_9to1_m_275_23_alg».proof.Pre_finite_inputs
import Idealize.ShloMosaic.PureOps.Ideal
import Idealize.ShloMosaic.PureOps.Ideal.Laws
import Idealize.ShloMosaic.Lib.ReduceAll
import Idealize.ShloMosaic.Lib.ValueIdx

noncomputable section

namespace Cert.Finite

open Idealize.ShloMosaic Idealize.ShloMosaic.ValueIdx

/-- The pattern 0x7F800000 denotes `+∞`. -/
theorem inf_eq_top : Ideal.ofBits .f32 0x7F800000#32 = (⊤ : EReal) := by simp [Ideal.ofBits, Ideal.ieee]

/-- An extended real whose absolute value `max x (-x)` lies below `⊤` is a real number: at `⊤` the maximum is
    `⊤` through its first argument, at `⊥` through its second (`-⊥ = ⊤`). -/
theorem real_of_abs_lt_top (x : EReal) (h : max x (-x) < ⊤) : ∃ r : ℝ, x = (r : EReal) := by
  induction x using EReal.rec with
  | bot => simp at h
  | coe r => exact ⟨r, rfl⟩
  | top => simp at h

/-- A decided proposition's bit is 1 exactly when the decision is `true`. -/
theorem ofBool_eq_one (b : Bool) : BitVec.ofBool b = 1#1 ↔ b = true := by cases b <;> decide

/-- One element's test `|x| < +∞` that came out 1 says `x` is a real number. -/
theorem real_of_elem (x : Ideal .f32)
    (h : FloatOps.cmpf .olt (FloatOps.hostAbsf x) (FloatOps.ofBits (F := Ideal) .f32 0x7F800000#32) = 1#1) :
    ∃ r : ℝ, x = (r : EReal) := by
  have h' : Ideal.cmp .olt (max (x : EReal) (-(x : EReal))) (Ideal.ofBits .f32 0x7F800000#32) = 1#1 := h
  rw [inf_eq_top] at h'
  unfold Ideal.cmp at h'
  rw [ofBool_eq_one] at h'
  exact real_of_abs_lt_top x (of_decide_eq_true h')

/-- A rank-0 array has one index. -/
instance : Subsingleton Cert.Pre_finite_inputs.S_.Idx := ⟨fun a b => funext fun d => d.elim0⟩

/-- THE PRECONDITION DECODED: both conjuncts are an `all` over the three axes that is 1, so the element test is 1
    at every index of each array, and each coordinate is a real number. -/
theorem real_of_pre [Cert.Pre_finite_inputs.Facts] (a0 a1 : FVec Ideal Cert.Pre_finite_inputs.S4x4096x3 .f32)
    (h : Cert.Pre_finite_inputs.fn (F := Ideal) a0 a1 = (fun _ => 1#1)) :
    (∀ i, ∃ r : ℝ, a0 i = (r : EReal)) ∧ (∀ i, ∃ r : ℝ, a1 i = (r : EReal)) := by
  have e := congrFun h ix0
  dsimp only [Cert.Pre_finite_inputs.fn] at e
  obtain ⟨e0, e1⟩ := IntOp.andi_eq_one.1 e
  refine ⟨fun i => ?_, fun i => ?_⟩
  · exact real_of_elem (a0 i) (Host.reduce_andi_all _ _ _ _ ix0 e0 i)
  · exact real_of_elem (a1 i) (Host.reduce_andi_all _ _ _ _ ix0 e1 i)

end Cert.Finite

end
-- ==== Proof.RefValue.lean ====
/-
  The reference program's result is the Chamfer loss in the reference's own spelling.

  The reference computes, for the query array X (its second argument) and the target array Y (its first):
  the squared lengths |x|² and |y|² as sums begun at zero, the inner products x·y, the clamped squared distance
  max ((|x|² + |y|²) - 2 (x·y)) 0 for every pair, the minimum over the targets begun at +∞, the mean over the
  queries of a batch (a sum begun at zero, divided by 4096), and the mean over the four batches (a sum begun at
  zero, divided by 4).  Read one operation at a time at an index built from its coordinates, each stage is the
  matching definition of Proof/Chamfer.lean.
-/
import proofs.«153046_g85667417686468_cont_9to1_m_275_23_alg».proof.Proof.Gen.ReferenceIdeal.Read
import proofs.«153046_g85667417686468_cont_9to1_m_275_23_alg».proof.Proof.Chamfer
import Idealize.ShloMosaic.PureOps.Ideal.Laws
import Idealize.ShloMosaic.Lib.ValueIdx
import Idealize.ShloMosaic.Lib.Pipeline.Value

noncomputable section

namespace Cert.RefValue

open Cert.ReferenceIdeal Cert.ReferenceIdeal.Gen Cert.ReferenceIdeal.Read Idealize.ShloMosaic Idealize.ShloMosaic.ValueIdx
open Cert.Chamfer

/-! ## The constants the reference spells, as extended reals -/

theorem ofBits_zero : Ideal.ofBits .f32 0x00000000#32 = 0 := Ideal.ofBits_zero_f32

theorem ofBits_two : Ideal.ofBits .f32 0x40000000#32 = ((2 : ℝ) : EReal) := by
  simp [Ideal.ofBits, Ideal.ieee, -EReal.coe_mul]; norm_num

theorem ofBits_4096 : Ideal.ofBits .f32 0x45800000#32 = ((4096 : ℝ) : EReal) := by
  simp [Ideal.ofBits, Ideal.ieee, -EReal.coe_mul]; norm_num

theorem ofBits_four : Ideal.ofBits .f32 0x40800000#32 = ((4 : ℝ) : EReal) := by
  simp [Ideal.ofBits, Ideal.ieee, -EReal.coe_mul]; norm_num

theorem ofBits_top : Ideal.ofBits .f32 0x7F800000#32 = ⊤ := by
  simp [Ideal.ofBits, Ideal.ieee]

/-! ## Indices built from coordinates

Each operation that moves data reads its operand at an index computed from the result index; at a result index
built from its coordinates the operand index is the one built from the matching coordinates. -/

/-- The array type of the two arguments, as the reference program states it. -/
abbrev Arr : Type := (⟨S4x4096x3, .f32⟩ : BufTy).Contents (Elt Ideal)

theorem idx_v1_ix (b : Fin 4) (n : Fin 4096) (k : Fin 3) : idx_main_v1 (ix2 b n) k = ix3 b n k :=
  funext fun a => Fin.ext (by match a with | ⟨0, _⟩ => rfl | ⟨1, _⟩ => rfl | ⟨2, _⟩ => rfl)

theorem idx_v3_ix (b : Fin 4) (m : Fin 4096) (k : Fin 3) : idx_main_v3 (ix2 b m) k = ix3 b m k :=
  funext fun a => Fin.ext (by match a with | ⟨0, _⟩ => rfl | ⟨1, _⟩ => rfl | ⟨2, _⟩ => rfl)

theorem lidx_v4_ix (b : Fin 4) (n m : Fin 4096) (k : Fin 3) : lidx_main_v4 (ix3 b n m) k = ix3 b n k :=
  funext fun a => Fin.ext (by match a with | ⟨0, _⟩ => rfl | ⟨1, _⟩ => rfl | ⟨2, _⟩ => rfl)

theorem ridx_v4_ix (b : Fin 4) (n m : Fin 4096) (k : Fin 3) : ridx_main_v4 (ix3 b n m) k = ix3 b m k :=
  funext fun a => Fin.ext (by match a with | ⟨0, _⟩ => rfl | ⟨1, _⟩ => rfl | ⟨2, _⟩ => rfl)

/-- The query's squared length is broadcast along the targets: at (b, n, m) it is read at (b, n). -/
theorem idx_v5_v7_ix (b : Fin 4) (n m : Fin 4096) : idx_main_v5 (idx_main_v7 (ix3 b n m)) = ix2 b n :=
  funext fun a => Fin.ext (by match a with | ⟨0, _⟩ => rfl | ⟨1, _⟩ => rfl)

/-- The target's squared length is broadcast along the queries: at (b, n, m) it is read at (b, m). -/
theorem idx_v6_v8_ix (b : Fin 4) (n m : Fin 4096) : idx_main_v6 (idx_main_v8 (ix3 b n m)) = ix2 b m :=
  funext fun a => Fin.ext (by match a with | ⟨0, _⟩ => rfl | ⟨1, _⟩ => rfl)

theorem idx_v16_ix (b : Fin 4) (n : Fin 4096) : idx_main_v16 (ix1 b) n = ix2 b n :=
  funext fun a => Fin.ext (by match a with | ⟨0, _⟩ => rfl | ⟨1, _⟩ => rfl)

/-! ## The stages -/

/-- The queries' squared lengths: a sum over the three coordinates begun at zero. -/
theorem v1_at (x1 : Arr) (b : Fin 4) (n : Fin 4096) :
    val_main_v1 (F := Ideal) x1 (ix2 b n) = 0 + sq x1 b n := by
  rw [val_main_v1_apply, val_main_cst_apply, Ideal.ofBits_def, ofBits_zero]
  show _ = 0 + ∑ d : Fin 3, x1 (ix3 b n d) * x1 (ix3 b n d)
  refine congrArg (0 + ·) (Finset.sum_congr rfl fun k _ => ?_)
  rw [val_main_v0_apply, Ideal.mulf_def, idx_v1_ix]

/-- The targets' squared lengths likewise. -/
theorem v3_at (x0 : Arr) (b : Fin 4) (m : Fin 4096) :
    val_main_v3 (F := Ideal) x0 (ix2 b m) = 0 + sq x0 b m := by
  rw [val_main_v3_apply, val_main_cst_0_apply, Ideal.ofBits_def, ofBits_zero]
  show _ = 0 + ∑ d : Fin 3, x0 (ix3 b m d) * x0 (ix3 b m d)
  refine congrArg (0 + ·) (Finset.sum_congr rfl fun k _ => ?_)
  rw [val_main_v2_apply, Ideal.mulf_def, idx_v3_ix]

/-- The inner product of query `n` with target `m`. -/
theorem v4_at (x0 x1 : Arr) (b : Fin 4) (n m : Fin 4096) :
    val_main_v4 (F := Ideal) x0 x1 (ix3 b n m) = dotp x1 x0 b n m := by
  rw [val_main_v4_apply]
  show _ = ∑ d : Fin 3, x1 (ix3 b n d) * x0 (ix3 b m d)
  refine Finset.sum_congr rfl fun k _ => ?_
  rw [lidx_v4_ix, ridx_v4_ix]

/-- The clamped squared distance of the pair (query `n`, target `m`). -/
theorem v14_at (x0 x1 : Arr) (b : Fin 4) (n m : Fin 4096) :
    val_main_v14 (F := Ideal) x0 x1 (ix3 b n m) = dist x0 x1 b n m := by
  rw [val_main_v14_apply, val_main_v12_apply, val_main_v9_apply, val_main_v7_apply, val_main_v5_apply,
    val_main_v8_apply, val_main_v6_apply, val_main_v11_apply, val_main_v10_apply, val_main_cst_1_apply,
    val_main_v13_apply, val_main_cst_2_apply, idx_v5_v7_ix, idx_v6_v8_ix, v1_at, v3_at, v4_at]
  simp only [Ideal.maximumf_def, Ideal.subf_def, Ideal.addf_def, Ideal.mulf_def, Ideal.ofBits_def, ofBits_two,
    ofBits_zero]
  rfl

/-- The shape fact of the minimum over the targets, in the form that names the inserted coordinate. -/
theorem reduces_targets : S4x4096x4096.Reduces [2] S4x4096 := by decide

/-- The index over (b, n) with target coordinate `m` inserted is (b, n, m). -/
theorem lift_ix (b : Fin 4) (n m : Fin 4096) : reduces_targets.lift (ix2 b n) m = ix3 b n m :=
  funext fun a => Fin.ext (by match a with | ⟨0, _⟩ => rfl | ⟨1, _⟩ => rfl | ⟨2, _⟩ => rfl)

/-- The nearest distance: the minimum over the targets, begun at `+∞`. The minimum is commutative and
    associative on the extended reals, so the reduction over the last axis is the fold over that axis's
    coordinates in any order. -/
theorem v15_at (x0 x1 : Arr) (b : Fin 4) (n : Fin 4096) :
    val_main_v15 (F := Ideal) x0 x1 (ix2 b n) = near x0 x1 b n := by
  unfold val_main_v15
  rw [Host.reduce_eq_fold_single (FloatOps.minimumf (F := Ideal) (φ := .f32)) _ _
    reducesTo_S4x4096x4096_S4x4096_d2 reduces_targets h_S_, val_main_cst_3_apply, Ideal.ofBits_def, ofBits_top]
  show (Finset.univ : Finset (Fin 4096)).fold min ⊤ (val_main_v14 (F := Ideal) x0 x1 ∘ reduces_targets.lift (ix2 b n))
    = (Finset.univ : Finset (Fin 4096)).fold min ⊤ (fun m => dist x0 x1 b n m)
  have key : ∀ m : Fin 4096,
      val_main_v14 (F := Ideal) x0 x1 (reduces_targets.lift (ix2 b n) m) = dist x0 x1 b n m :=
    fun m => by rw [lift_ix, v14_at]
  exact Finset.fold_congr fun m _ => key m

/-- The sum over the queries of a batch, begun at zero. -/
theorem v16_at (x0 x1 : Arr) (b : Fin 4) :
    val_main_v16 (F := Ideal) x0 x1 (ix1 b) = 0 + ∑ n : Fin 4096, near x0 x1 b n := by
  rw [val_main_v16_apply, val_main_cst_4_apply, Ideal.ofBits_def, ofBits_zero]
  refine congrArg (0 + ·) (Finset.sum_congr rfl fun k _ => ?_)
  rw [idx_v16_ix, v15_at]

/-- The mean over the queries of a batch. -/
theorem v18_at (x0 x1 : Arr) (b : Fin 4) :
    val_main_v18 (F := Ideal) x0 x1 (ix1 b)
      = Ideal.div (0 + ∑ n : Fin 4096, near x0 x1 b n) ((4096 : ℝ) : EReal) := by
  rw [val_main_v18_apply, val_main_v17_apply, val_main_cst_5_apply, Ideal.hostDivf_def, Ideal.ofBits_def,
    ofBits_4096, v16_at]

/-! ## The result -/

/-- The reference's result at its one index is the mean over the batches of the mean over the queries of the
    nearest clamped squared distance. -/
theorem ref_eq [Cert.ReferenceIdeal.Facts] (x0 x1 : (⟨Cert.ReferenceIdeal.S4x4096x3, .f32⟩ : BufTy).Contents (Elt Ideal)) :
    Cert.ReferenceIdeal.Read.val_main_v20 (F := Ideal) x0 x1 = fun _ => Cert.Chamfer.refLoss x0 x1 := by
  funext i
  rw [val_main_v20_apply, val_main_v19_apply, val_main_cst_7_apply, val_main_cst_6_apply, Ideal.hostDivf_def,
    Ideal.ofBits_def, Ideal.ofBits_def, ofBits_four, ofBits_zero, sum_idx1]
  simp only [v18_at]
  rfl

end Cert.RefValue

end
-- ==== Proof.Stack.lean ====
/-
  Rows and columns of two small stacks, read at an index.

  * Five blocks of 3, 1, 1, 1 and 2 rows laid one under another make an array of 8 rows: row 0, 1, 2 is the
    first block's row, row 3, 4, 5 the one row of the second, third, fourth block, row 6, 7 the last block's.
  * Three blocks of 3, 3 and 2 columns laid side by side make an array of 8 columns, likewise.
-/
import Idealize.ShloMosaic.Lib.Pipeline.Value
import Idealize.ShloMosaic.Lib.ValueIdx

namespace Cert.Stack

open Idealize.ShloMosaic Idealize.ShloMosaic.ValueIdx

variable {α : Type} {C N : Nat}

section Rows

variable (p0 : (⟨2, ![3, C]⟩ : Shape).Idx → α) (p1 p2 p3 : (⟨2, ![1, C]⟩ : Shape).Idx → α)
  (p4 : (⟨2, ![2, C]⟩ : Shape).Idx → α)
  (h : Shape.Concatenates [(⟨2, ![3, C]⟩ : Shape), ⟨2, ![1, C]⟩, ⟨2, ![1, C]⟩, ⟨2, ![1, C]⟩, ⟨2, ![2, C]⟩] ⟨2, ![8, C]⟩ 0)

/-- Rows 0, 1, 2 of the stack are the rows of the first block. -/
theorem rows_top (r : Fin 3) (r' : Fin 8) (hr : r'.val = r.val) (m : Fin C) :
    concatenate (⟨2, ![8, C]⟩ : Shape) 0 [⟨⟨2, ![3, C]⟩, p0⟩, ⟨⟨2, ![1, C]⟩, p1⟩, ⟨⟨2, ![1, C]⟩, p2⟩, ⟨⟨2, ![1, C]⟩, p3⟩, ⟨⟨2, ![2, C]⟩, p4⟩] h (ix2 r' m)
      = p0 (ix2 r m) :=
  concatenate_apply_piece (t := (⟨2, ![8, C]⟩ : Shape)) 0 [⟨⟨2, ![3, C]⟩, p0⟩, ⟨⟨2, ![1, C]⟩, p1⟩, ⟨⟨2, ![1, C]⟩, p2⟩, ⟨⟨2, ![1, C]⟩, p3⟩, ⟨⟨2, ![2, C]⟩, p4⟩] h (ix2 r' m) 0 (by simp) ⟨2, ![3, C]⟩ p0 rfl rfl 0 rfl (ix2 r m)
    (fun b hb => match b with | ⟨0, _⟩ => (hb (Fin.ext rfl)).elim | ⟨1, _⟩ => rfl)
    (by show 0 + r.val = r'.val; omega)

/-- Row 3 is the second block's one row. -/
theorem rows_3 (m : Fin C) :
    concatenate (⟨2, ![8, C]⟩ : Shape) 0 [⟨⟨2, ![3, C]⟩, p0⟩, ⟨⟨2, ![1, C]⟩, p1⟩, ⟨⟨2, ![1, C]⟩, p2⟩, ⟨⟨2, ![1, C]⟩, p3⟩, ⟨⟨2, ![2, C]⟩, p4⟩] h (ix2 (3 : Fin 8) m)
      = p1 (ix2 (0 : Fin 1) m) :=
  concatenate_apply_piece (t := (⟨2, ![8, C]⟩ : Shape)) 0 [⟨⟨2, ![3, C]⟩, p0⟩, ⟨⟨2, ![1, C]⟩, p1⟩, ⟨⟨2, ![1, C]⟩, p2⟩, ⟨⟨2, ![1, C]⟩, p3⟩, ⟨⟨2, ![2, C]⟩, p4⟩] h (ix2 (3 : Fin 8) m) 1 (by simp) ⟨2, ![1, C]⟩ p1 rfl rfl 3 rfl (ix2 (0 : Fin 1) m)
    (fun b hb => match b with | ⟨0, _⟩ => (hb (Fin.ext rfl)).elim | ⟨1, _⟩ => rfl) rfl

/-- Row 4 is the third block's one row. -/
theorem rows_4 (m : Fin C) :
    concatenate (⟨2, ![8, C]⟩ : Shape) 0 [⟨⟨2, ![3, C]⟩, p0⟩, ⟨⟨2, ![1, C]⟩, p1⟩, ⟨⟨2, ![1, C]⟩, p2⟩, ⟨⟨2, ![1, C]⟩, p3⟩, ⟨⟨2, ![2, C]⟩, p4⟩] h (ix2 (4 : Fin 8) m)
      = p2 (ix2 (0 : Fin 1) m) :=
  concatenate_apply_piece (t := (⟨2, ![8, C]⟩ : Shape)) 0 [⟨⟨2, ![3, C]⟩, p0⟩, ⟨⟨2, ![1, C]⟩, p1⟩, ⟨⟨2, ![1, C]⟩, p2⟩, ⟨⟨2, ![1, C]⟩, p3⟩, ⟨⟨2, ![2, C]⟩, p4⟩] h (ix2 (4 : Fin 8) m) 2 (by simp) ⟨2, ![1, C]⟩ p2 rfl rfl 4 rfl (ix2 (0 : Fin 1) m)
    (fun b hb => match b with | ⟨0, _⟩ => (hb (Fin.ext rfl)).elim | ⟨1, _⟩ => rfl) rfl

/-- Row 5 is the fourth block's one row. -/
theorem rows_5 (m : Fin C) :
    concatenate (⟨2, ![8, C]⟩ : Shape) 0 [⟨⟨2, ![3, C]⟩, p0⟩, ⟨⟨2, ![1, C]⟩, p1⟩, ⟨⟨2, ![1, C]⟩, p2⟩, ⟨⟨2, ![1, C]⟩, p3⟩, ⟨⟨2, ![2, C]⟩, p4⟩] h (ix2 (5 : Fin 8) m)
      = p3 (ix2 (0 : Fin 1) m) :=
  concatenate_apply_piece (t := (⟨2, ![8, C]⟩ : Shape)) 0 [⟨⟨2, ![3, C]⟩, p0⟩, ⟨⟨2, ![1, C]⟩, p1⟩, ⟨⟨2, ![1, C]⟩, p2⟩, ⟨⟨2, ![1, C]⟩, p3⟩, ⟨⟨2, ![2, C]⟩, p4⟩] h (ix2 (5 : Fin 8) m) 3 (by simp) ⟨2, ![1, C]⟩ p3 rfl rfl 5 rfl (ix2 (0 : Fin 1) m)
    (fun b hb => match b with | ⟨0, _⟩ => (hb (Fin.ext rfl)).elim | ⟨1, _⟩ => rfl) rfl

/-- Rows 6, 7 are the rows of the last block. -/
theorem rows_bottom (r : Fin 2) (r' : Fin 8) (hr : r'.val = 6 + r.val) (m : Fin C) :
    concatenate (⟨2, ![8, C]⟩ : Shape) 0 [⟨⟨2, ![3, C]⟩, p0⟩, ⟨⟨2, ![1, C]⟩, p1⟩, ⟨⟨2, ![1, C]⟩, p2⟩, ⟨⟨2, ![1, C]⟩, p3⟩, ⟨⟨2, ![2, C]⟩, p4⟩] h (ix2 r' m)
      = p4 (ix2 r m) :=
  concatenate_apply_piece (t := (⟨2, ![8, C]⟩ : Shape)) 0 [⟨⟨2, ![3, C]⟩, p0⟩, ⟨⟨2, ![1, C]⟩, p1⟩, ⟨⟨2, ![1, C]⟩, p2⟩, ⟨⟨2, ![1, C]⟩, p3⟩, ⟨⟨2, ![2, C]⟩, p4⟩] h (ix2 r' m) 4 (by simp) ⟨2, ![2, C]⟩ p4 rfl rfl 6 rfl (ix2 r m)
    (fun b hb => match b with | ⟨0, _⟩ => (hb (Fin.ext rfl)).elim | ⟨1, _⟩ => rfl)
    (by show 6 + r.val = r'.val; omega)

end Rows

section Cols

variable (q0 q1 : (⟨2, ![N, 3]⟩ : Shape).Idx → α) (q2 : (⟨2, ![N, 2]⟩ : Shape).Idx → α)
  (h : Shape.Concatenates [(⟨2, ![N, 3]⟩ : Shape), ⟨2, ![N, 3]⟩, ⟨2, ![N, 2]⟩] ⟨2, ![N, 8]⟩ 1)

/-- Columns 0, 1, 2 are the columns of the first block. -/
theorem cols_left (k : Fin 3) (k' : Fin 8) (hk : k'.val = k.val) (n : Fin N) :
    concatenate (⟨2, ![N, 8]⟩ : Shape) 1 [⟨⟨2, ![N, 3]⟩, q0⟩, ⟨⟨2, ![N, 3]⟩, q1⟩, ⟨⟨2, ![N, 2]⟩, q2⟩] h (ix2 n k') = q0 (ix2 n k) :=
  concatenate_apply_piece (t := (⟨2, ![N, 8]⟩ : Shape)) 1 [⟨⟨2, ![N, 3]⟩, q0⟩, ⟨⟨2, ![N, 3]⟩, q1⟩, ⟨⟨2, ![N, 2]⟩, q2⟩] h (ix2 n k') 0 (by simp) ⟨2, ![N, 3]⟩ q0 rfl rfl 0 rfl (ix2 n k)
    (fun b hb => match b with | ⟨0, _⟩ => rfl | ⟨1, _⟩ => (hb (Fin.ext rfl)).elim)
    (by show 0 + k.val = k'.val; omega)

/-- Columns 3, 4, 5 are the columns of the second block. -/
theorem cols_mid (k : Fin 3) (k' : Fin 8) (hk : k'.val = 3 + k.val) (n : Fin N) :
    concatenate (⟨2, ![N, 8]⟩ : Shape) 1 [⟨⟨2, ![N, 3]⟩, q0⟩, ⟨⟨2, ![N, 3]⟩, q1⟩, ⟨⟨2, ![N, 2]⟩, q2⟩] h (ix2 n k') = q1 (ix2 n k) :=
  concatenate_apply_piece (t := (⟨2, ![N, 8]⟩ : Shape)) 1 [⟨⟨2, ![N, 3]⟩, q0⟩, ⟨⟨2, ![N, 3]⟩, q1⟩, ⟨⟨2, ![N, 2]⟩, q2⟩] h (ix2 n k') 1 (by simp) ⟨2, ![N, 3]⟩ q1 rfl rfl 3 rfl (ix2 n k)
    (fun b hb => match b with | ⟨0, _⟩ => rfl | ⟨1, _⟩ => (hb (Fin.ext rfl)).elim)
    (by show 3 + k.val = k'.val; omega)

/-- Columns 6, 7 are the columns of the last block. -/
theorem cols_right (k : Fin 2) (k' : Fin 8) (hk : k'.val = 6 + k.val) (n : Fin N) :
    concatenate (⟨2, ![N, 8]⟩ : Shape) 1 [⟨⟨2, ![N, 3]⟩, q0⟩, ⟨⟨2, ![N, 3]⟩, q1⟩, ⟨⟨2, ![N, 2]⟩, q2⟩] h (ix2 n k') = q2 (ix2 n k) :=
  concatenate_apply_piece (t := (⟨2, ![N, 8]⟩ : Shape)) 1 [⟨⟨2, ![N, 3]⟩, q0⟩, ⟨⟨2, ![N, 3]⟩, q1⟩, ⟨⟨2, ![N, 2]⟩, q2⟩] h (ix2 n k') 2 (by simp) ⟨2, ![N, 2]⟩ q2 rfl rfl 6 rfl (ix2 n k)
    (fun b hb => match b with | ⟨0, _⟩ => rfl | ⟨1, _⟩ => (hb (Fin.ext rfl)).elim)
    (by show 6 + k.val = k'.val; omega)

end Cols

end Cert.Stack
-- ==== Proof.LibColumn.lean ====
import Idealize.ShloMosaic.Lib.ValueLayout

/-!
# A trailing unit axis

A vector of length `a` laid out as one column `[a, 1]`, and that column repeated along the second axis to `[a, b]`:
read at an index, the column holds the vector's entry of the same row, and the repeated column holds, at `(p, c)`,
the column's entry of row `p` whatever `c` is. Together they say a row-wise scale factor kept as a column reaches
every entry of its row.
-/

namespace Cert.LibColumn

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- One column broadcast over `b` columns reads, at `(p, c)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumn
-- ==== Proof.Consts.lean ====
/-
  The float constants the kernel spells, as the extended reals their bit patterns denote.
-/
import Idealize.ShloMosaic.PureOps.Ideal

noncomputable section

namespace Cert.Consts

open Idealize.ShloMosaic

/-- `+0.0` in f32 denotes `0`. -/
theorem f32_zero : Ideal.ofBits .f32 0x00000000#32 = 0 := by
  simp [Ideal.ofBits, Ideal.ieee]

/-- `+0.0` in bf16 denotes `0`. -/
theorem bf16_zero : Ideal.ofBits .bf16 0x0000#16 = 0 := by
  simp [Ideal.ofBits, Ideal.ieee]

/-- `1.0` in bf16 denotes `1`. -/
theorem bf16_one : Ideal.ofBits .bf16 0x3F80#16 = 1 := by
  simp [Ideal.ofBits, Ideal.ieee, -EReal.coe_mul]; norm_num

/-- `-2.0` in f32 denotes the real `-2`. -/
theorem f32_neg_two : Ideal.ofBits .f32 0xC0000000#32 = ((-2 : ℝ) : EReal) := by
  simp [Ideal.ofBits, Ideal.ieee, -EReal.coe_mul]; norm_num

/-- The f32 infinity pattern denotes `+∞`. -/
theorem f32_inf : Ideal.ofBits .f32 0x7F800000#32 = ⊤ := by
  simp [Ideal.ofBits, Ideal.ieee]

/-- The pattern `0x33800000` denotes `2⁻²⁴ = 1 / 16777216`. -/
theorem f32_two_pow_neg24 : Ideal.ofBits .f32 0x33800000#32 = ((1 / 16777216 : ℝ) : EReal) := by
  simp [Ideal.ofBits, Ideal.ieee, -EReal.coe_mul]; norm_num

end Cert.Consts

end
-- ==== Proof.KernelBlock.lean ====
/-
  What the kernel's body stores, as a function of the two blocks it loads.

  The body loads a block `y : [1, 3, 4096]` of targets (coordinates as rows) and a block `x : [1, 1024, 3]` of
  queries.  From `y` it builds an 8-row array: the three coordinate rows, the row `s` of squared lengths, the rows
  `s - s` and `(s - s) - (s - s)`, and two rows of zeros.  From `x` it builds an 8-column array: the three
  coordinates times `-2`, three columns of ones, two columns of zeros.  The matrix unit multiplies the two into a
  zero accumulator; each row is reduced by `min` from `+∞`, the query's squared length is added, the result
  clamped at zero from below, and the 1024 clamped values are summed.  That one number fills the 8 × 128 tile.

  Each stage is named below and read at an index; the last theorem reads the stored tile at any index as the
  sum over the block's queries.
-/
import proofs.«153046_g85667417686468_cont_9to1_m_275_23_alg».proof.Proof.Gen.KernelIdeal.Skeleton
import proofs.«153046_g85667417686468_cont_9to1_m_275_23_alg».proof.Proof.Stack
import proofs.«153046_g85667417686468_cont_9to1_m_275_23_alg».proof.Proof.LibColumn
import proofs.«153046_g85667417686468_cont_9to1_m_275_23_alg».proof.Proof.LibFoldMin
import proofs.«153046_g85667417686468_cont_9to1_m_275_23_alg».proof.Proof.Chamfer
import proofs.«153046_g85667417686468_cont_9to1_m_275_23_alg».proof.Proof.Consts
import Idealize.ShloMosaic.Lib.ValueIdx
import Idealize.ShloMosaic.Lib.ValueLayout
import Idealize.ShloMosaic.Lib.Pipeline.Value
import Idealize.ShloMosaic.PureOps.Ideal.Laws

noncomputable section

namespace Cert.KernelBlock

open Idealize.ShloMosaic Idealize.ShloMosaic.ValueIdx Cert.KernelIdeal
open Cert.KernelIdeal.Gen (k0_pay1)
open Cert.KernelIdeal.Facts₀

variable [Cert.KernelIdeal.Facts]

/-! ## The stages -/

/-- The targets' coordinates as a [3, 4096] array. -/
def yT (y : FVec Ideal S1x3x4096 .f32) : FVec Ideal S3x4096 .f32 := shapeCast S3x4096 y shapeCasts_S1x3x4096_S3x4096

/-- The row of the targets' squared lengths. -/
def ysqV (y : FVec Ideal S1x3x4096 .f32) : FVec Ideal S1x4096 .f32 :=
  shapeCast S1x4096 (multiReduction .add [0] S4096 (mulf (yT y) (yT y)) 0x00000000#32 reduces_S3x4096_S4096 (.inl rfl) rfl)
    shapeCasts_S4096_S1x4096

/-- What is left of the squared lengths after the first split, and after the second. -/
def rem1 (y : FVec Ideal S1x3x4096 .f32) : FVec Ideal S1x4096 .f32 := subf (ysqV y) (ysqV y)
def rem2 (y : FVec Ideal S1x3x4096 .f32) : FVec Ideal S1x4096 .f32 := subf (rem1 y) (rem1 y)

/-- The 8-row right operand. -/
def wV (y : FVec Ideal S1x3x4096 .f32) : FVec Ideal S8x4096 .bf16 :=
  concatenate S8x4096 0 [⟨S3x4096, truncf .bf16 (yT y) bitsLt_bf16_f32⟩, ⟨S1x4096, truncf .bf16 (ysqV y) bitsLt_bf16_f32⟩,
    ⟨S1x4096, truncf .bf16 (rem1 y) bitsLt_bf16_f32⟩, ⟨S1x4096, truncf .bf16 (rem2 y) bitsLt_bf16_f32⟩,
    ⟨S2x4096, broadcast S2x4096 (Scalar.ofBits (F := Ideal) .bf16 0x0000#16)⟩]
    concatenates_S3x4096_S1x4096_S1x4096_S1x4096_S2x4096_S8x4096_d0

/-- The queries as a [1024, 3] array. -/
def xM (x : FVec Ideal S1x1024x3 .f32) : FVec Ideal S1024x3 .f32 := shapeCast S1024x3 x shapeCasts_S1x1024x3_S1024x3

/-- The 8-column left operand. -/
def xwV (x : FVec Ideal S1x1024x3 .f32) : FVec Ideal S1024x8 .bf16 :=
  concatenate S1024x8 1 [⟨S1024x3, truncf .bf16 (mulf (xM x) (broadcast S1024x3 (Scalar.ofBits (F := Ideal) .f32 0xC0000000#32))) bitsLt_bf16_f32⟩,
    ⟨S1024x3, broadcast S1024x3 (Scalar.ofBits (F := Ideal) .bf16 0x3F80#16)⟩,
    ⟨S1024x2, broadcast S1024x2 (Scalar.ofBits (F := Ideal) .bf16 0x0000#16)⟩]
    concatenates_S1024x3_S1024x3_S1024x2_S1024x8_d1

/-- The product, one entry per (query, target) pair. -/
def tV (x : FVec Ideal S1x1024x3 .f32) (y : FVec Ideal S1x3x4096 .f32) : FVec Ideal S1024x4096 .f32 :=
  matmul dot_S1024x8_S8x4096_S1024x4096_1_0_0_1_n_n none (xwV x) (wV y) (constant S1024x4096 .f32 0x00000000#32)

/-- Each query's minimum over the targets, as a column. -/
def minV (x : FVec Ideal S1x1024x3 .f32) (y : FVec Ideal S1x3x4096 .f32) : FVec Ideal S1024x1 .f32 :=
  shapeCast S1024x1 (multiReduction .minimumf [1] S1024 (tV x y) 0x7F800000#32 reduces_S1024x4096_S1024 (.inl rfl) rfl)
    shapeCasts_S1024_S1024x1

/-- Each query's squared length, as a column. -/
def xsqV (x : FVec Ideal S1x1024x3 .f32) : FVec Ideal S1024x1 .f32 :=
  shapeCast S1024x1 (multiReduction .add [1] S1024 (mulf (xM x) (xM x)) 0x00000000#32 reduces_S1024x3_S1024 (.inl rfl) rfl)
    shapeCasts_S1024_S1024x1

/-- The clamped nearest distances. -/
def clampV (x : FVec Ideal S1x1024x3 .f32) (y : FVec Ideal S1x3x4096 .f32) : FVec Ideal S1x1024x1 .f32 :=
  shapeCast S1x1024x1 (maximumf (addf (minV x y) (xsqV x)) (broadcast S1024x1 (Scalar.ofBits (F := Ideal) .f32 0x00000000#32)))
    shapeCasts_S1024x1_S1x1024x1

/-- Their sum. -/
def totV (x : FVec Ideal S1x1024x3 .f32) (y : FVec Ideal S1x3x4096 .f32) : FVec Ideal S1 .f32 :=
  multiReduction .add [1, 2] S1 (clampV x y) 0x00000000#32 reduces_S1x1024x1_S1 (.inl rfl) rfl

/-- The body's stored tile is the sum, spread over the tile. -/
theorem pay_eq (y : FVec Ideal S1x3x4096 .f32) (x : FVec Ideal S1x1024x3 .f32) :
    k0_pay1 (F := Ideal) y x
      = broadcast S8x128 (extractAt ![0, 0, 0] (shapeCast S1x1x1 (totV x y) shapeCasts_S1_S1x1x1) inpos_S1x1x1_p0_0_0) := rfl

/-! ## The stages read at an index -/

variable (x : FVec Ideal S1x1024x3 .f32) (y : FVec Ideal S1x3x4096 .f32)

theorem yT_apply (d : Fin 3) (m : Fin 4096) : yT y (ix2 d m) = y (ix3 (0 : Fin 1) d m) :=
  shapeCast_1ab_ab_apply y shapeCasts_S1x3x4096_S3x4096 d m

/-- A target's squared length: the sum over its three coordinates of their squares. -/
def ysq (m : Fin 4096) : EReal := ∑ d : Fin 3, y (ix3 (0 : Fin 1) d m) * y (ix3 (0 : Fin 1) d m)

theorem ysqV_apply (u : Fin 1) (m : Fin 4096) : ysqV y (ix2 u m) = ysq y m := by
  refine (shapeCast_a_1a_apply _ shapeCasts_S4096_S1x4096 u m).trans ?_
  refine (Ideal.multiReduction_add_single (mulf (yT y) (yT y)) 0x00000000#32 reduces_S3x4096_S4096 (.inl rfl) rfl (ix1 m)).trans ?_
  refine Finset.sum_congr rfl fun (d : Fin 3) _ => ?_
  have e : reduces_S3x4096_S4096.lift (ix1 m) d = ix2 d m :=
    funext fun a => Fin.ext (by match a with | ⟨0, _⟩ => rfl | ⟨1, _⟩ => rfl)
  show yT y (reduces_S3x4096_S4096.lift (ix1 m) d) * yT y (reduces_S3x4096_S4096.lift (ix1 m) d) = _
  rw [e, yT_apply]

theorem rem1_apply (u : Fin 1) (m : Fin 4096) : rem1 y (ix2 u m) = ysq y m - ysq y m := by
  show ysqV y (ix2 u m) - ysqV y (ix2 u m) = _
  rw [ysqV_apply]

theorem rem2_apply (u : Fin 1) (m : Fin 4096) : rem2 y (ix2 u m) = (ysq y m - ysq y m) - (ysq y m - ysq y m) := by
  show rem1 y (ix2 u m) - rem1 y (ix2 u m) = _
  rw [rem1_apply]

/-! The eight rows of the right operand. -/

theorem wV_top (d : Fin 3) (k : Fin 8) (hk : k.val = d.val) (m : Fin 4096) : wV y (ix2 k m) = y (ix3 (0 : Fin 1) d m) :=
  (Cert.Stack.rows_top _ _ _ _ _ concatenates_S3x4096_S1x4096_S1x4096_S1x4096_S2x4096_S8x4096_d0 d k hk m).trans (yT_apply y d m)

theorem wV_3 (m : Fin 4096) : wV y (ix2 (3 : Fin 8) m) = ysq y m :=
  (Cert.Stack.rows_3 _ _ _ _ _ concatenates_S3x4096_S1x4096_S1x4096_S1x4096_S2x4096_S8x4096_d0 m).trans (ysqV_apply y 0 m)

theorem wV_4 (m : Fin 4096) : wV y (ix2 (4 : Fin 8) m) = ysq y m - ysq y m :=
  (Cert.Stack.rows_4 _ _ _ _ _ concatenates_S3x4096_S1x4096_S1x4096_S1x4096_S2x4096_S8x4096_d0 m).trans (rem1_apply y 0 m)

theorem wV_5 (m : Fin 4096) : wV y (ix2 (5 : Fin 8) m) = (ysq y m - ysq y m) - (ysq y m - ysq y m) :=
  (Cert.Stack.rows_5 _ _ _ _ _ concatenates_S3x4096_S1x4096_S1x4096_S1x4096_S2x4096_S8x4096_d0 m).trans (rem2_apply y 0 m)

theorem wV_bottom (d : Fin 2) (k : Fin 8) (hk : k.val = 6 + d.val) (m : Fin 4096) :
    wV y (ix2 k m) = Ideal.ofBits .bf16 0x0000#16 :=
  Cert.Stack.rows_bottom _ _ _ _ _ concatenates_S3x4096_S1x4096_S1x4096_S1x4096_S2x4096_S8x4096_d0 d k hk m

/-! The eight columns of the left operand. -/

theorem xM_apply (r : Fin 1024) (d : Fin 3) : xM x (ix2 r d) = x (ix3 (0 : Fin 1) r d) :=
  shapeCast_1ab_ab_apply x shapeCasts_S1x1024x3_S1024x3 r d

theorem xwV_left (d : Fin 3) (k : Fin 8) (hk : k.val = d.val) (r : Fin 1024) :
    xwV x (ix2 r k) = x (ix3 (0 : Fin 1) r d) * Ideal.ofBits .f32 0xC0000000#32 :=
  (Cert.Stack.cols_left _ _ _ concatenates_S1024x3_S1024x3_S1024x2_S1024x8_d1 d k hk r).trans
    (congrArg (· * Ideal.ofBits .f32 0xC0000000#32) (xM_apply x r d))

theorem xwV_mid (d : Fin 3) (k : Fin 8) (hk : k.val = 3 + d.val) (r : Fin 1024) :
    xwV x (ix2 r k) = Ideal.ofBits .bf16 0x3F80#16 :=
  Cert.Stack.cols_mid _ _ _ concatenates_S1024x3_S1024x3_S1024x2_S1024x8_d1 d k hk r

theorem xwV_right (d : Fin 2) (k : Fin 8) (hk : k.val = 6 + d.val) (r : Fin 1024) :
    xwV x (ix2 r k) = Ideal.ofBits .bf16 0x0000#16 :=
  Cert.Stack.cols_right _ _ _ concatenates_S1024x3_S1024x3_S1024x2_S1024x8_d1 d k hk r

/-! ## The product -/

theorem lhs_q0 (i : S1024x4096.Idx) (q : dot_S1024x8_S8x4096_S1024x4096_1_0_0_1_n_n.contr.Idx) :
    (dot_S1024x8_S8x4096_S1024x4096_1_0_0_1_n_n.lhsIdx i q 0).val = (i 0).val := by
  unfold DotDims.lhsIdx
  rw [dif_neg (show ¬(0 : Fin S1024x8.rank) ∈ dot_S1024x8_S8x4096_S1024x4096_1_0_0_1_n_n.lhsBatch by decide),
    dif_pos (show (0 : Fin S1024x8.rank) ∈ dot_S1024x8_S8x4096_S1024x4096_1_0_0_1_n_n.lhsNonContracting by decide)]
  rfl
theorem lhs_q1 (i : S1024x4096.Idx) (q : dot_S1024x8_S8x4096_S1024x4096_1_0_0_1_n_n.contr.Idx) :
    (dot_S1024x8_S8x4096_S1024x4096_1_0_0_1_n_n.lhsIdx i q 1).val = (q ⟨0, by decide⟩).val :=
  dot_S1024x8_S8x4096_S1024x4096_1_0_0_1_n_n.lhsIdx_val_of_single rfl i q
theorem rhs_q0 (i : S1024x4096.Idx) (q : dot_S1024x8_S8x4096_S1024x4096_1_0_0_1_n_n.contr.Idx) :
    (dot_S1024x8_S8x4096_S1024x4096_1_0_0_1_n_n.rhsIdx i q 0).val = (q ⟨0, by decide⟩).val :=
  dot_S1024x8_S8x4096_S1024x4096_1_0_0_1_n_n.rhsIdx_val_of_single rfl i q
theorem rhs_q1 (i : S1024x4096.Idx) (q : dot_S1024x8_S8x4096_S1024x4096_1_0_0_1_n_n.contr.Idx) :
    (dot_S1024x8_S8x4096_S1024x4096_1_0_0_1_n_n.rhsIdx i q 1).val = (i 1).val := by
  unfold DotDims.rhsIdx
  rw [dif_neg (show ¬(1 : Fin S8x4096.rank) ∈ dot_S1024x8_S8x4096_S1024x4096_1_0_0_1_n_n.rhsBatch by decide),
    dif_pos (show (1 : Fin S8x4096.rank) ∈ dot_S1024x8_S8x4096_S1024x4096_1_0_0_1_n_n.rhsNonContracting by decide)]
  rfl

/-- The product at (query `r`, target `m`) is the sum over the eight lanes of left column times right row. -/
theorem tV_apply (r : Fin 1024) (m : Fin 4096) :
    tV x y (ix2 r m) = ∑ k : Fin 8, xwV x (ix2 r k) * wV y (ix2 k m) := by
  unfold tV
  simp only [matmul]
  rw [Ideal.matmul_constant_zero_apply,
    ← Equiv.sum_comp (ValueIdx.contrEquiv1 dot_S1024x8_S8x4096_S1024x4096_1_0_0_1_n_n 8 rfl rfl).symm]
  refine Finset.sum_congr rfl fun k _ => ?_
  have hk := ValueIdx.contrEquiv1_symm_val dot_S1024x8_S8x4096_S1024x4096_1_0_0_1_n_n 8 rfl rfl k
  have el : dot_S1024x8_S8x4096_S1024x4096_1_0_0_1_n_n.lhsIdx (ix2 r m)
      ((ValueIdx.contrEquiv1 dot_S1024x8_S8x4096_S1024x4096_1_0_0_1_n_n 8 rfl rfl).symm k) = ix2 r k :=
    funext fun a => Fin.ext (by
      match a with
      | ⟨0, _⟩ => exact lhs_q0 _ _
      | ⟨1, _⟩ => exact (lhs_q1 _ _).trans hk)
  have er : dot_S1024x8_S8x4096_S1024x4096_1_0_0_1_n_n.rhsIdx (ix2 r m)
      ((ValueIdx.contrEquiv1 dot_S1024x8_S8x4096_S1024x4096_1_0_0_1_n_n 8 rfl rfl).symm k) = ix2 k m :=
    funext fun a => Fin.ext (by
      match a with
      | ⟨0, _⟩ => exact (rhs_q0 _ _).trans hk
      | ⟨1, _⟩ => exact rhs_q1 _ _)
  rw [el, er]

/-- The eight lanes, written out. -/
def blanes (r : Fin 1024) (m : Fin 4096) : EReal :=
  x (ix3 (0 : Fin 1) r 0) * Ideal.ofBits .f32 0xC0000000#32 * y (ix3 (0 : Fin 1) 0 m)
    + x (ix3 (0 : Fin 1) r 1) * Ideal.ofBits .f32 0xC0000000#32 * y (ix3 (0 : Fin 1) 1 m)
    + x (ix3 (0 : Fin 1) r 2) * Ideal.ofBits .f32 0xC0000000#32 * y (ix3 (0 : Fin 1) 2 m)
    + Ideal.ofBits .bf16 0x3F80#16 * ysq y m
    + Ideal.ofBits .bf16 0x3F80#16 * (ysq y m - ysq y m)
    + Ideal.ofBits .bf16 0x3F80#16 * ((ysq y m - ysq y m) - (ysq y m - ysq y m))
    + Ideal.ofBits .bf16 0x0000#16 * Ideal.ofBits .bf16 0x0000#16
    + Ideal.ofBits .bf16 0x0000#16 * Ideal.ofBits .bf16 0x0000#16

theorem tV_lanes (r : Fin 1024) (m : Fin 4096) : tV x y (ix2 r m) = blanes x y r m := by
  rw [tV_apply, Fin.sum_univ_eight]
  rw [xwV_left x 0 0 rfl r, xwV_left x 1 1 rfl r, xwV_left x 2 2 rfl r,
    xwV_mid x 0 3 rfl r, xwV_mid x 1 4 rfl r, xwV_mid x 2 5 rfl r,
    xwV_right x 0 6 rfl r, xwV_right x 1 7 rfl r,
    wV_top y 0 0 rfl m, wV_top y 1 1 rfl m, wV_top y 2 2 rfl m, wV_3, wV_4, wV_5,
    wV_bottom y 0 6 rfl m, wV_bottom y 1 7 rfl m]
  rfl

/-! ## The minimum, the squared length, the clamp, the sum -/

/-- A query's squared length. -/
def xsq (r : Fin 1024) : EReal := ∑ d : Fin 3, x (ix3 (0 : Fin 1) r d) * x (ix3 (0 : Fin 1) r d)

/-- A query's minimum over the targets: the fold of `min` from `+∞` over the lane sums. -/
theorem minV_apply (r : Fin 1024) (u : Fin 1) :
    minV x y (ix2 r u)
      = (Finset.univ : Finset (Fin 4096)).fold min (Ideal.ofBits .f32 0x7F800000#32) (fun m => blanes x y r m) := by
  refine (Cert.LibColumn.shapeCast_a_a1_apply _ shapeCasts_S1024_S1024x1 r u).trans ?_
  refine (Cert.LibFoldMin.multiReduction_minimumf_single (tV x y) 0x7F800000#32 reduces_S1024x4096_S1024 (.inl rfl) rfl (ix1 r)).trans ?_
  refine congrArg (fun f => (Finset.univ : Finset (Fin 4096)).fold min (Ideal.ofBits .f32 0x7F800000#32) f) (funext fun (m : Fin 4096) => ?_)
  have e : reduces_S1024x4096_S1024.lift (ix1 r) m = ix2 r m :=
    funext fun a => Fin.ext (by match a with | ⟨0, _⟩ => rfl | ⟨1, _⟩ => rfl)
  show tV x y (reduces_S1024x4096_S1024.lift (ix1 r) m) = _
  rw [e, tV_lanes]

theorem xsqV_apply (r : Fin 1024) (u : Fin 1) : xsqV x (ix2 r u) = xsq x r := by
  refine (Cert.LibColumn.shapeCast_a_a1_apply _ shapeCasts_S1024_S1024x1 r u).trans ?_
  refine (Ideal.multiReduction_add_single (mulf (xM x) (xM x)) 0x00000000#32 reduces_S1024x3_S1024 (.inl rfl) rfl (ix1 r)).trans ?_
  refine Finset.sum_congr rfl fun (d : Fin 3) _ => ?_
  have e : reduces_S1024x3_S1024.lift (ix1 r) d = ix2 r d :=
    funext fun a => Fin.ext (by match a with | ⟨0, _⟩ => rfl | ⟨1, _⟩ => rfl)
  show xM x (reduces_S1024x3_S1024.lift (ix1 r) d) * xM x (reduces_S1024x3_S1024.lift (ix1 r) d) = _
  rw [e, xM_apply]

/-- One query's clamped nearest distance. -/
def bnear (r : Fin 1024) : EReal :=
  max ((Finset.univ : Finset (Fin 4096)).fold min (Ideal.ofBits .f32 0x7F800000#32) (fun m => blanes x y r m) + xsq x r)
    (Ideal.ofBits .f32 0x00000000#32)

theorem clampV_apply (v : Fin 1) (r : Fin 1024) (u : Fin 1) : clampV x y (ix3 v r u) = bnear x y r := by
  refine (shapeCast_ab_1ab_apply _ shapeCasts_S1024x1_S1x1024x1 v r u).trans ?_
  rw [maximumf_apply, addf_apply, broadcast_apply, minV_apply, xsqV_apply]
  unfold bnear
  exact congrArg (max _) rfl

/-- The sum over the block's 1024 queries, at the one index of the result. -/
theorem totV_apply (j : S1.Idx) : totV x y j = ∑ r : Fin 1024, bnear x y r := by
  refine (Ideal.multiReduction_add_total (clampV x y) 0x00000000#32 reduces_S1x1024x1_S1
    (fun b => match b with | ⟨0, _⟩ => rfl) (.inl rfl) rfl j).trans ?_
  refine (Cert.Chamfer.sum_idx1n1 (clampV x y)).trans ?_
  exact Finset.sum_congr rfl fun r _ => clampV_apply x y 0 r 0

/-- A one-entry array spread over the tile reads, at any index, that entry. -/
theorem spread_apply (T : FVec Ideal S1 .f32) (c : EReal) (h : ∀ j, T j = c) (j : S8x128.Idx) :
    (broadcast S8x128 (extractAt ![0, 0, 0] (shapeCast S1x1x1 T shapeCasts_S1_S1x1x1) inpos_S1x1x1_p0_0_0) : FVec Ideal S8x128 .f32) j = c :=
  h _

/-- THE STORED TILE, at any of its indices, is the sum over the block's queries of their clamped nearest
    distances. -/
theorem pay_apply (j : S8x128.Idx) : k0_pay1 (F := Ideal) y x j = ∑ r : Fin 1024, bnear x y r := by
  rw [pay_eq]
  exact spread_apply _ _ (totV_apply x y) j

/-! ## The tile in terms of the whole arrays -/

open Cert.Chamfer in
/-- When the query block holds block `jj` of batch `b` of the query array `X`, and the target block holds
    batch `b` of the target array `Y` with coordinates as rows, a query's clamped nearest distance is the
    whole-array one. -/
theorem bnear_eq (Y X : Cert.Chamfer.Pts) (b jj : Fin 4)
    (hx : ∀ (r : Fin 1024) (d : Fin 3), x (ix3 (0 : Fin 1) r d) = X (ix3 b (qidx jj r) d))
    (hy : ∀ (d : Fin 3) (m : Fin 4096), y (ix3 (0 : Fin 1) d m) = Y (ix3 b m d)) (r : Fin 1024) :
    bnear x y r = knear Y X b (qidx jj r) := by
  have hs : ∀ m, ysq y m = Cert.Chamfer.sq Y b m := fun m => Finset.sum_congr rfl fun d _ => by rw [hy]
  have hq : xsq x r = Cert.Chamfer.sq X b (qidx jj r) := Finset.sum_congr rfl fun d _ => by rw [hx]
  have hl : (fun m => blanes x y r m) = fun m => lanes Y X b (qidx jj r) m := funext fun m => by
    unfold blanes lanes
    rw [hs, hx, hx, hx, hy, hy, hy, Cert.Consts.f32_neg_two, Cert.Consts.bf16_one, Cert.Consts.bf16_zero]
  unfold bnear knear
  rw [hl, hq, Cert.Consts.f32_inf, Cert.Consts.f32_zero]

open Cert.Chamfer in
/-- So the stored tile is the block's sum. -/
theorem pay_blockSum (Y X : Cert.Chamfer.Pts) (b jj : Fin 4)
    (hx : ∀ (r : Fin 1024) (d : Fin 3), x (ix3 (0 : Fin 1) r d) = X (ix3 b (qidx jj r) d))
    (hy : ∀ (d : Fin 3) (m : Fin 4096), y (ix3 (0 : Fin 1) d m) = Y (ix3 b m d)) (j : S8x128.Idx) :
    k0_pay1 (F := Ideal) y x j = blockSum Y X b jj :=
  (pay_apply x y j).trans (Finset.sum_congr rfl fun r _ => bnear_eq x y Y X b jj hx hy r)

end Cert.KernelBlock

end
-- ==== Proof.KernelValue.lean ====
/-
  The kernel's run read as a value: what the result buffer holds after the run, as a function of the two
  argument arrays.

  The grid has 4 × 4 points.  At point (b, j) the body is handed block j of batch b of the queries (1024 points),
  all of batch b of the targets — transposed on the host beforehand, so that coordinates are rows — and writes
  the 8 × 128 tile at tile position (b, j) of a [32, 512] array.  By Proof/KernelBlock.lean every entry of that
  tile is the block's sum of clamped nearest distances; the sixteen tiles cover the array, so the array after the
  region is `tiles` below.  The host then sums the array from zero and scales by `2⁻²⁴`: `Cert.Chamfer.kernLoss`.
-/
import proofs.«153046_g85667417686468_cont_9to1_m_275_23_alg».proof.Proof.Gen.KernelIdeal.Frame
import proofs.«153046_g85667417686468_cont_9to1_m_275_23_alg».proof.Proof.KernelBlock
import Idealize.ShloMosaic.Lib.Pipeline.Value
import Idealize.ShloMosaic.Lib.StableHlo.Run
import Idealize.ShloMosaic.Lib.ValueLayout

noncomputable section

namespace Cert.KernelValue

open Idealize.ShloMosaic Idealize.ShloMosaic.TcCoe Idealize.ShloMosaic.ValueIdx Idealize.SL.Sem
open Cert.KernelIdeal
open Cert.KernelIdeal.Gen (V V0 iblk dats after0_2 out0_2 flush0_2 A_eq run_main hostOps0 hostOps1 launch0 V_main_arg0 V_main_arg1 k0_pay1)
open Cert.Chamfer (Pts blockSum qidx kernLoss)

variable (m : (ℓ : Loc nD τ sig) → Buf (Elt Ideal) ℓ) (ρ : Dev nD → PrngReg)

/-! ## The array the region leaves -/

/-- Entry (p, q) of the [32, 512] array lies in tile (p / 8, q / 128) and holds that block's sum. -/
def tiles (Y X : Pts) : S32x512.Idx → EReal := fun i =>
  blockSum Y X ⟨(i 0).val / 8, by have h : (i 0).val < 32 := (i 0).isLt; omega⟩
    ⟨(i 1).val / 128, by have h : (i 1).val < 512 := (i 1).isLt; omega⟩

/-! ## The blocks the body is handed -/

/-- The host's transposition: the target array with coordinates as rows. -/
theorem V_main_v0 (c : Dev nD) :
    (V m c main_v0 : S4x3x4096.Idx → EReal)
      = transpose S4x3x4096 [0, 2, 1] (m ((c : Thread nD τ).loc main_arg0)) Facts₀.transposes_S4x4096x3_S4x3x4096_0_2_1 := by
  show StableHlo.after hostOps0 (fun b => m (c, b)) (Proc.devRef .tc main_v0) = _
  after_results

/-- The printed index maps over the grid: the query window moves with the output window on both axes, the
    target window on the batch axis only. -/
theorem idx_facts : ∀ t : Fin cfg0.N,
    win0_0.index t (0 : Fin 3) = win0_2.index t (0 : Fin 2) ∧ win0_0.index t (1 : Fin 3) = win0_2.index t (1 : Fin 2)
    ∧ win0_0.index t (2 : Fin 3) = 0
    ∧ win0_1.index t (0 : Fin 3) = win0_2.index t (0 : Fin 2) ∧ win0_1.index t (1 : Fin 3) = 0 ∧ win0_1.index t (2 : Fin 3) = 0
    ∧ win0_2.index t (0 : Fin 2) ≤ 3 ∧ win0_2.index t (1 : Fin 2) ≤ 3 :=
  (by decide +kernel : ∀ t : Fin grid0.N, _)

/-- Every tile position is some point's. -/
theorem idx_onto : ∀ (q0 : Fin 4) (q1 : Fin 4), ∃ t : Fin cfg0.N, win0_2.index t = ![q0.val, q1.val] :=
  (by decide +kernel : ∀ (q0 : Fin 4) (q1 : Fin 4), ∃ t : Fin grid0.N, win0_2.index t = ![q0.val, q1.val])

/-- The query block at a point whose query-window position is (b, j, 0). -/
theorem xblk_apply (c : Dev nD) (t : Fin cfg0.N) (b jj : Fin 4) (h0 : win0_0.index t (0 : Fin 3) = b.val)
    (h1 : win0_0.index t (1 : Fin 3) = jj.val) (h2 : win0_0.index t (2 : Fin 3) = 0) (r : Fin 1024) (d : Fin 3) :
    iblk m c 0 t (ix3 (0 : Fin 1) r d) = m ((c : Thread nD τ).loc main_arg1) (ix3 b (qidx jj r) d) := by
  rw [← V_main_arg1 m c]
  show V m c main_arg1 (((cfg0.win 0).blk t).view.emb (ix3 (0 : Fin 1) r d)) = V m c main_arg1 (ix3 b (qidx jj r) d)
  refine congrArg _ (funext fun a => Fin.ext ?_)
  match a with
  | ⟨0, _⟩ => show win0_0.index t (0 : Fin 3) * 1 + 1 * 0 = b.val; omega
  | ⟨1, _⟩ => show win0_0.index t (1 : Fin 3) * 1024 + 1 * r.val = jj.val * 1024 + r.val; omega
  | ⟨2, _⟩ => show win0_0.index t (2 : Fin 3) * 3 + 1 * d.val = d.val; omega

/-- The target block at a point whose target-window position is (b, 0, 0). -/
theorem yblk_apply (c : Dev nD) (t : Fin cfg0.N) (b : Fin 4) (h0 : win0_1.index t (0 : Fin 3) = b.val)
    (h1 : win0_1.index t (1 : Fin 3) = 0) (h2 : win0_1.index t (2 : Fin 3) = 0) (d : Fin 3) (mm : Fin 4096) :
    iblk m c 1 t (ix3 (0 : Fin 1) d mm) = m ((c : Thread nD τ).loc main_arg0) (ix3 b mm d) := by
  have e : iblk m c 1 t (ix3 (0 : Fin 1) d mm) = V m c main_v0 (ix3 b d mm) := by
    show V m c main_v0 (((cfg0.win 1).blk t).view.emb (ix3 (0 : Fin 1) d mm)) = V m c main_v0 (ix3 b d mm)
    refine congrArg _ (funext fun a => Fin.ext ?_)
    match a with
    | ⟨0, _⟩ => show win0_1.index t (0 : Fin 3) * 1 + 1 * 0 = b.val; omega
    | ⟨1, _⟩ => show win0_1.index t (1 : Fin 3) * 3 + 1 * d.val = d.val; omega
    | ⟨2, _⟩ => show win0_1.index t (2 : Fin 3) * 4096 + 1 * mm.val = mm.val; omega
  rw [e, V_main_v0]
  exact transpose_ix3_021_apply _ _ b d mm

/-! ## What each point writes back, and the array they make -/

theorem hz2 : (![0, 0] : Fin 2 → Nat) = fun _ => 0 := funext fun a => by fin_cases a <;> rfl
theorem hz3 : (![0, 0, 0] : Fin 3 → Nat) = fun _ => 0 := funext fun a => by fin_cases a <;> rfl

/-- WHAT POINT `t` WRITES BACK is tile `t` of `tiles` of the argument arrays. -/
theorem flushed_eq (c : Dev nD) (t : Fin cfg0.N) :
    (dats m 0 c).flushed 2 t
      = ((cfg0.win 2).blk t).view.read (Elt Ideal)
          (tiles (m ((c : Thread nD τ).loc main_arg0)) (m ((c : Thread nD τ).loc main_arg1))) := by
  show (cfg0.win 2).cut (grid0.coords t) ((dats m 0 c).after 2 t) = _
  rw [after0_2]
  unfold out0_2
  rw [View.canon_unit_zero hz2]
  simp only [View.ld_unit_zero (S := S1x3x4096) hz3, View.ld_unit_zero (S := S1x1024x3) hz3]
  obtain ⟨e00, e01, e02, e10, e11, e12, l0, l1⟩ := idx_facts t
  funext j
  have hj0 : (j 0).val < 8 := (j 0).isLt
  have hj1 : (j 1).val < 128 := (j 1).isLt
  refine (Cert.KernelBlock.pay_blockSum (iblk m c 0 t) (iblk m c 1 t)
    (m ((c : Thread nD τ).loc main_arg0)) (m ((c : Thread nD τ).loc main_arg1))
    ⟨win0_2.index t (0 : Fin 2), by omega⟩ ⟨win0_2.index t (1 : Fin 2), by omega⟩
    (fun r d => xblk_apply m c t _ _ e00 e01 e02 r d) (fun d mm => yblk_apply m c t _ e10 e11 e12 d mm) _).trans ?_
  show _ = tiles _ _ (((cfg0.win 2).blk t).view.emb j)
  unfold tiles
  have a0 : ((((cfg0.win 2).blk t).view.emb j) 0).val = win0_2.index t (0 : Fin 2) * 8 + 1 * (j 0).val := rfl
  have a1 : ((((cfg0.win 2).blk t).view.emb j) 1).val = win0_2.index t (1 : Fin 2) * 128 + 1 * (j 1).val := rfl
  refine congrArg₂ (blockSum _ _) (Fin.ext ?_) (Fin.ext ?_)
  · show win0_2.index t (0 : Fin 2) = ((((cfg0.win 2).blk t).view.emb j) 0).val / 8
    rw [a0]; omega
  · show win0_2.index t (1 : Fin 2) = ((((cfg0.win 2).blk t).view.emb j) 1).val / 128
    rw [a1]; omega

/-- An index of the array is in point `t`'s tile iff each coordinate is in the tile's range on its axis. -/
theorem mem_blk (t : Fin cfg0.N) (i : S32x512.Idx) :
    i ∈ ((cfg0.win 2).blk t).view.set ↔ ∀ a : Fin 2, win0_2.index t a * S8x128.size a ≤ (i a).val ∧ (i a).val < win0_2.index t a * S8x128.size a + S8x128.size a := by
  show i ∈ ((View.whole main_v1).slice (win0_2.rect t)).set ↔ _
  rw [View.set_slice_whole, Rect.mem_set_unit]
  exact Iff.rfl

/-- The sixteen tiles cover the array. -/
theorem cover (i : S32x512.Idx) : ∃ t : Fin cfg0.N, (cfg0.win 2).flush t = true ∧ i ∈ ((cfg0.win 2).blk t).view.set := by
  have hi0 : (i 0).val < 32 := (i 0).isLt
  have hi1 : (i 1).val < 512 := (i 1).isLt
  obtain ⟨t, ht⟩ := idx_onto ⟨(i 0).val / 8, by omega⟩ ⟨(i 1).val / 128, by omega⟩
  have q0 : win0_2.index t (0 : Fin 2) = (i 0).val / 8 := congrFun ht 0
  have q1 : win0_2.index t (1 : Fin 2) = (i 1).val / 128 := congrFun ht 1
  refine ⟨t, flush0_2 t, ?_⟩
  rw [mem_blk]
  intro a
  match a with
  | ⟨0, _⟩ => show win0_2.index t (0 : Fin 2) * 8 ≤ (i 0).val ∧ (i 0).val < win0_2.index t (0 : Fin 2) * 8 + 8; omega
  | ⟨1, _⟩ => show win0_2.index t (1 : Fin 2) * 128 ≤ (i 1).val ∧ (i 1).val < win0_2.index t (1 : Fin 2) * 128 + 128; omega

/-- THE ARRAY after the region: `tiles` of the argument arrays. -/
theorem final (c : Dev nD) :
    (dats m 0 c).arrAt 2 cfg0.N = tiles (m ((c : Thread nD τ).loc main_arg0)) (m ((c : Thread nD τ).loc main_arg1)) :=
  (dats m 0 c).arrAt_eq_of_cover 2 _ (fun t _ => flushed_eq m c t) cover

/-! ## The host's last lines -/

/-- Summing a [32, 512] array from zero and scaling by the constant `0x33800000` gives, at the result's one index,
    `(0 + Σ entries) · 2⁻²⁴`, the entries summed by rows and columns. -/
theorem host_tail (T : S32x512.Idx → EReal) (h : S32x512.ReducesTo [0, 1] S_) (hu : 0 < S_.numel) :
    (mulf (Host.reduceAdd (F := Ideal) T (constant (F := Ideal) S_ .f32 0x00000000#32) h hu) (constant (F := Ideal) S_ .f32 0x33800000#32)
        : S_.Idx → EReal)
      = fun _ => (0 + ∑ p : Fin 32, ∑ q : Fin 512, T (ix2 p q)) * ((1 / 16777216 : ℝ) : EReal) := by
  funext i
  rw [mulf_apply, constant_apply, Cert.Consts.f32_two_pow_neg24]
  refine congrArg (· * ((1 / 16777216 : ℝ) : EReal)) ?_
  simp only [Host.reduceAdd, Ideal.hostReduceAdd_def]
  refine (Ideal.hostReduceAdd_total h (fun b => b.elim0) T _ i).trans ?_
  rw [sum_idx2]
  exact congrArg (· + _) Cert.Consts.f32_zero

/-- THE RESULT: after the host's last lines the result buffer holds `kernLoss` of the argument arrays. -/
theorem result_eq (c : Dev nD) :
    Pipeline.afterTail₀ cfgs (dats m) 0 (V0 m) [hostOps1] c main_v3
      = fun _ => kernLoss (m ((c : Thread nD τ).loc main_arg0)) (m ((c : Thread nD τ).loc main_arg1)) := by
  unfold Pipeline.afterTail₀
  show StableHlo.after hostOps1 _ (Proc.devRef .tc main_v3) = _
  after_results
  have hw : Pipeline.withArrays (cfgs 0).spec c (V0 m c) (fun w => (dats m 0 c).arrAt w (cfgs 0).N) (Proc.devRef .tc main_v1)
      = tiles (m ((c : Thread nD τ).loc main_arg0)) (m ((c : Thread nD τ).loc main_arg1)) :=
    (Pipeline.withArrays_arr spec0 launch0.win.arr_inj c _ _ 2).trans (final m c)
  rw [hw]
  exact host_tail _ _ _

/-! ## The run, read -/

/-- Every weakly fair execution of the kernel's program ends with the result buffer at `kernLoss` of the argument
    arrays, and the argument arrays as they were. -/
theorem run : θ_run defs (onTc (τ := τ) (main (F := Ideal))) ⟨m, fun _ => 0, ρ⟩ fun r => ∀ c : Dev nD,
      r.2.mem ((c.tc : Thread nD τ).loc main_v3)
          = (fun _ => kernLoss (m ((c.tc : Thread nD τ).loc main_arg0)) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v3 (Pipeline.mem_restRefs_of main_v3 (by decide) (by decide))).trans (result_eq m c),
     ((h c).2 main_arg0 (Pipeline.mem_restRefs_of main_arg0 (by decide) (by decide))).trans (Cert.KernelIdeal.Gen.W_main_arg0 m (dats m) c),
     ((h c).1 0).trans (((dats m 0 c).arrAt_in 0 rfl _).trans ((A_eq m c 0).trans (V_main_arg1 m c)))⟩)
    (run_main m ρ)

end Cert.KernelValue

end
-- ==== Proof.lean ====
/-
  The certificate of a one-directional Chamfer loss: a tiled kernel against the plain array program.

  Both programs take a target array and a query array, four batches of 4096 points of three coordinates each, and
  return one number: the mean, over batches and queries, of the squared distance from a query to its nearest
  target, clamped at zero.

  * The array program computes every pairwise `max (|x|² + |y|² - 2 x·y) 0`, takes the minimum over the targets,
    and averages twice (Proof/RefValue.lean reads it as `Cert.Chamfer.refLoss`).
  * The kernel, at each of 4 × 4 grid points, multiplies an 8-lane query operand `(-2x, 1, 1, 1, 0, 0)` with an
    8-lane target operand `(y, s, s - s, (s - s) - (s - s), 0, 0)`, `s = |y|²`, takes row minima, adds `|x|²`,
    clamps, sums its 1024 queries and fills an 8 × 128 tile with the sum; the host totals the tiles and scales by
    `2⁻²⁴` (Proof/KernelBlock.lean, Proof/KernelValue.lean read it as `Cert.Chamfer.kernLoss`).
  * Over real coordinates — which the precondition gives (Proof/Finite.lean) — `s - s = 0`, the lane sum is
    `|y|² - 2 x·y`, adding `|x|²` and clamping commute with the minimum, and each tile's sum is counted
    8 · 128 = 1024 times, which `2⁻²⁴ · 1024 = 1 / (4 · 4096)` undoes (Proof/ChamferLaw.lean).
  The two format round trips the idealization removes are the rule's own statements.
-/
import proofs.«153046_g85667417686468_cont_9to1_m_275_23_alg».proof.Defs
import proofs.«153046_g85667417686468_cont_9to1_m_275_23_alg».proof.Proof.Gen.Kernel
import proofs.«153046_g85667417686468_cont_9to1_m_275_23_alg».proof.Proof.Gen.Kernel.Skeleton
import proofs.«153046_g85667417686468_cont_9to1_m_275_23_alg».proof.Proof.Gen.Kernel.Launch
import proofs.«153046_g85667417686468_cont_9to1_m_275_23_alg».proof.Proof.Gen.Kernel.Points
import proofs.«153046_g85667417686468_cont_9to1_m_275_23_alg».proof.Proof.Gen.Kernel.Frame
import proofs.«153046_g85667417686468_cont_9to1_m_275_23_alg».proof.Proof.Gen.KernelIdeal
import proofs.«153046_g85667417686468_cont_9to1_m_275_23_alg».proof.Proof.Gen.KernelIdeal.Skeleton
import proofs.«153046_g85667417686468_cont_9to1_m_275_23_alg».proof.Proof.Gen.KernelIdeal.Launch
import proofs.«153046_g85667417686468_cont_9to1_m_275_23_alg».proof.Proof.Gen.KernelIdeal.Points
import proofs.«153046_g85667417686468_cont_9to1_m_275_23_alg».proof.Proof.Gen.KernelIdeal.Frame
import proofs.«153046_g85667417686468_cont_9to1_m_275_23_alg».proof.Proof.Gen.ReferenceIdeal
import proofs.«153046_g85667417686468_cont_9to1_m_275_23_alg».proof.Proof.Gen.Pre_finite_inputs
import proofs.«153046_g85667417686468_cont_9to1_m_275_23_alg».proof.Proof.Gen.ReferenceIdeal.Run
import proofs.«153046_g85667417686468_cont_9to1_m_275_23_alg».proof.Proof.Gen.ReferenceIdeal.Read
import proofs.«153046_g85667417686468_cont_9to1_m_275_23_alg».proof.Proof.Chamfer
import proofs.«153046_g85667417686468_cont_9to1_m_275_23_alg».proof.Proof.ChamferLaw
import proofs.«153046_g85667417686468_cont_9to1_m_275_23_alg».proof.Proof.Finite
import proofs.«153046_g85667417686468_cont_9to1_m_275_23_alg».proof.Proof.RefValue
import proofs.«153046_g85667417686468_cont_9to1_m_275_23_alg».proof.Proof.KernelValue
import Idealize.ShloMosaic.Adequacy
import Idealize.ShloMosaic.Init

noncomputable section

namespace Cert.Proof

open Idealize.ShloMosaic Idealize.ShloMosaic.TcCoe Idealize.SL.Sem

/-- The three programs run, fault-free, and leave their arguments as they were. -/
theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The two removed round trips through the narrower format: on the extended reals a change of format is the
    identity, which is what the rule states. -/
theorem preserves : Cert.preserves_Kernel_KernelIdeal :=
  ⟨IdealRules.truncf_extf.statement _ .f32 .bf16, IdealRules.truncf_extf.statement _ .f32 .bf16⟩

/-- Both programs end with the loss of the argument arrays: the kernel's spelling of it and the reference's are one
    number, the coordinates being real. -/
theorem algebraic : Cert.algebraic_KernelIdeal_ReferenceIdeal := by
  intro m ρ m' ρ' hpre hagree
  refine ⟨fun c => fun _ => Cert.Chamfer.refLoss
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)), ?_, ?_⟩
  · refine (θ_run Cert.KernelIdeal.defs _ _).mono (fun _ h c => ⟨(h c).1.trans ?_, (h c).2⟩) (Cert.KernelValue.run m ρ)
    obtain ⟨hY, hX⟩ := Cert.Finite.real_of_pre _ _ (hpre c)
    exact funext fun _ => Cert.Chamfer.kernLoss_eq_refLoss _ _ hY hX
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v20_eq, Cert.RefValue.ref_eq, (hagree c).1, (hagree c).2]
    rfl

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
